-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8192x64 : Shape := ⟨3, ![64, 8192, 64]⟩
abbrev S64x64 : Shape := ⟨2, ![64, 64]⟩
abbrev S64 : Shape := ⟨1, ![64]⟩
abbrev S2x3x64x64 : Shape := ⟨4, ![2, 3, 64, 64]⟩
abbrev S2x3x64 : Shape := ⟨3, ![2, 3, 64]⟩
abbrev S_ : Shape := ⟨0, ![]⟩

class Facts : Prop where
  bcast_S_S64x8192x64 : S_.BroadcastsInDim S64x8192x64 (![] : Fin 0 → Fin S64x8192x64.rank)
  reducesTo_S64x8192x64_S_d0_1_2 : S64x8192x64.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S2x3x64x64 : S_.BroadcastsInDim S2x3x64x64 (![] : Fin 0 → Fin S2x3x64x64.rank)
  reducesTo_S2x3x64x64_S_d0_1_2_3 : S2x3x64x64.ReducesTo [0, 1, 2, 3] S_
  bcast_S_S2x3x64 : S_.BroadcastsInDim S2x3x64 (![] : Fin 0 → Fin S2x3x64.rank)
  reducesTo_S2x3x64_S_d0_1_2 : S2x3x64.ReducesTo [0, 1, 2] S_

variable [Facts]

def fn_part1 {F : FTy → Type} [FloatOps F] (main_arg4 : FVec F S2x3x64 .f32) (main_arg5 : FVec F S2x3x64 .f32) (main_v13 : IVec S_ 1) (main_v16 : IVec S2x3x64x64 1) : IVec S_ 1 :=
  let main_c_5 : IVec S_ 1 := constantI S_ 1 1#1
  let main_v17 : IVec S_ 1 := (fun x v => Host.reduce IntOp.andi x v reducesTo_S2x3x64x64_S_d0_1_2_3 h_S_) main_v16 main_c_5
  let main_v18 : IVec S_ 1 := andi main_v13 main_v17
  let main_v19 : FVec F S2x3x64 .f32 := Host.absf main_arg4
  let main_cst_6 : FVec F S_ .f32 := constant S_ .f32 0x7F800000#32
  let main_v20 : FVec F S2x3x64 .f32 := broadcastInDim S2x3x64 ![] bcast_S_S2x3x64 main_cst_6
  let main_v21 : IVec S2x3x64 1 := cmpf .olt main_v19 main_v20
  let main_c_7 : IVec S_ 1 := constantI S_ 1 1#1
  let main_v22 : IVec S_ 1 := (fun x v => Host.reduce IntOp.andi x v reducesTo_S2x3x64_S_d0_1_2 h_S_) main_v21 main_c_7
  let main_v23 : IVec S_ 1 := andi main_v18 main_v22
  let main_v24 : FVec F S2x3x64 .f32 := Host.absf main_arg5
  let main_cst_8 : FVec F S_ .f32 := constant S_ .f32 0x7F800000#32
  let main_v25 : FVec F S2x3x64 .f32 := broadcastInDim S2x3x64 ![] bcast_S_S2x3x64 main_cst_8
  let main_v26 : IVec S2x3x64 1 := cmpf .olt main_v24 main_v25
  let main_c_9 : IVec S_ 1 := constantI S_ 1 1#1
  let main_v27 : IVec S_ 1 := (fun x v => Host.reduce IntOp.andi x v reducesTo_S2x3x64_S_d0_1_2 h_S_) main_v26 main_c_9
  let main_v28 : IVec S_ 1 := andi main_v23 main_v27
  main_v28

def fn {F : FTy → Type} [FloatOps F] (main_arg0 : FVec F S64x8192x64 .f32) (main_arg1 : FVec F S64x64 .f32) (main_arg2 : FVec F S64 .f32) (main_arg3 : FVec F S2x3x64x64 .f32) (main_arg4 : FVec F S2x3x64 .f32) (main_arg5 : FVec F S2x3x64 .f32) : IVec S_ 1 :=
  let main_v0 : FVec F S64x8192x64 .f32 := Host.absf main_arg0
  let main_cst : FVec F S_ .f32 := constant S_ .f32 0x7F800000#32
  let main_v1 : FVec F S64x8192x64 .f32 := broadcastInDim S64x8192x64 ![] bcast_S_S64x8192x64 main_cst
  let main_v2 : IVec S64x8192x64 1 := cmpf .olt main_v0 main_v1
  let main_c : IVec S_ 1 := constantI S_ 1 1#1
  let main_v3 : IVec S_ 1 := (fun x v => Host.reduce IntOp.andi x v reducesTo_S64x8192x64_S_d0_1_2 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S2x3x64x64 .f32 := Host.absf main_arg3
  let main_cst_4 : FVec F S_ .f32 := constant S_ .f32 0x7F800000#32
  let main_v15 : FVec F S2x3x64x64 .f32 := broadcastInDim S2x3x64x64 ![] bcast_S_S2x3x64x64 main_cst_4
  let main_v16 : IVec S2x3x64x64 1 := cmpf .olt main_v14 main_v15
  fn_part1 (F := F) main_arg4 main_arg5 main_v13 main_v16
-- ==== Kernel.lean ====
abbrev S64x8192x64 : Shape := ⟨3, ![64, 8192, 64]⟩
abbrev S64x64 : Shape := ⟨2, ![64, 64]⟩
abbrev S64 : Shape := ⟨1, ![64]⟩
abbrev S2x3x64x64 : Shape := ⟨4, ![2, 3, 64, 64]⟩
abbrev S2x3x64 : Shape := ⟨3, ![2, 3, 64]⟩
abbrev S1x64 : Shape := ⟨2, ![1, 64]⟩
abbrev S2x1x64x64 : Shape := ⟨4, ![2, 1, 64, 64]⟩
abbrev S2x64x64 : Shape := ⟨3, ![2, 64, 64]⟩
abbrev S2x1x64 : Shape := ⟨3, ![2, 1, 64]⟩
abbrev S2x64 : Shape := ⟨2, ![2, 64]⟩
abbrev S8x1024x64 : Shape := ⟨3, ![8, 1024, 64]⟩
abbrev S8x64 : Shape := ⟨2, ![8, 64]⟩
abbrev S8192x64 : Shape := ⟨2, ![8192, 64]⟩
abbrev S1x64x64 : Shape := ⟨3, ![1, 64, 64]⟩

abbrev nBuf : Space → Nat
  | .hbm => 27
  | .vmem => 13
  | .smem => 0
  | _ => 0

abbrev bufTy : (tb : Table) → Fin (tcTables nBuf tb) → BufTy
  | .hbm, ⟨0, _⟩ => ⟨S64x8192x64, .f32⟩
  | .hbm, ⟨1, _⟩ => ⟨S64x64, .f32⟩
  | .hbm, ⟨2, _⟩ => ⟨S64, .f32⟩
  | .hbm, ⟨3, _⟩ => ⟨S2x3x64x64, .f32⟩
  | .hbm, ⟨4, _⟩ => ⟨S2x3x64, .f32⟩
  | .hbm, ⟨5, _⟩ => ⟨S2x3x64, .f32⟩
  | .hbm, ⟨6, _⟩ => ⟨S64x64, .f32⟩
  | .hbm, ⟨7, _⟩ => ⟨S64x64, .bf16⟩
  | .hbm, ⟨8, _⟩ => ⟨S1x64, .f32⟩
  | .hbm, ⟨9, _⟩ => ⟨S2x3x64x64, .f32⟩
  | .hbm, ⟨10, _⟩ => ⟨S2x1x64x64, .f32⟩
  | .hbm, ⟨11, _⟩ => ⟨S2x64x64, .f32⟩
  | .hbm, ⟨12, _⟩ => ⟨S2x64x64, .bf16⟩
  | .hbm, ⟨13, _⟩ => ⟨S2x1x64x64, .f32⟩
  | .hbm, ⟨14, _⟩ => ⟨S2x64x64, .f32⟩
  | .hbm, ⟨15, _⟩ => ⟨S2x64x64, .bf16⟩
  | .hbm, ⟨16, _⟩ => ⟨S2x1x64x64, .f32⟩
  | .hbm, ⟨17, _⟩ => ⟨S2x64x64, .f32⟩
  | .hbm, ⟨18, _⟩ => ⟨S2x64x64, .bf16⟩
  | .hbm, ⟨19, _⟩ => ⟨S2x3x64, .f32⟩
  | .hbm, ⟨20, _⟩ => ⟨S2x1x64, .f32⟩
  | .hbm, ⟨21, _⟩ => ⟨S2x64, .f32⟩
  | .hbm, ⟨22, _⟩ => ⟨S2x1x64, .f32⟩
  | .hbm, ⟨23, _⟩ => ⟨S2x64, .f32⟩
  | .hbm, ⟨24, _⟩ => ⟨S2x1x64, .f32⟩
  | .hbm, ⟨25, _⟩ => ⟨S2x64, .f32⟩
  | .hbm, ⟨26, _⟩ => ⟨S64x64, .f32⟩
  | .local _ .vmem, ⟨0, _⟩ => ⟨S8x1024x64, .f32⟩
  | .local _ .vmem, ⟨1, _⟩ => ⟨S8x1024x64, .f32⟩
  | .local _ .vmem, ⟨2, _⟩ => ⟨S64x64, .bf16⟩
  | .local _ .vmem, ⟨3, _⟩ => ⟨S1x64, .f32⟩
  | .local _ .vmem, ⟨4, _⟩ => ⟨S2x64x64, .bf16⟩
  | .local _ .vmem, ⟨5, _⟩ => ⟨S2x64x64, .bf16⟩
  | .local _ .vmem, ⟨6, _⟩ => ⟨S2x64x64, .bf16⟩
  | .local _ .vmem, ⟨7, _⟩ => ⟨S2x64, .f32⟩
  | .local _ .vmem, ⟨8, _⟩ => ⟨S2x64, .f32⟩
  | .local _ .vmem, ⟨9, _⟩ => ⟨S2x64, .f32⟩
  | .local _ .vmem, ⟨10, _⟩ => ⟨S8x64, .f32⟩
  | .local _ .vmem, ⟨11, _⟩ => ⟨S8x64, .f32⟩
  | .local _ .vmem, ⟨12, _⟩ => ⟨S8x64, .f32⟩
  | _, _ => ⟨S64x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v82 : BitVec 1 := Scalar.cmpi .eq arg1 c7_i32
  let v83 : BitVec 32 := Scalar.extui v82
  let c0_i32_47 : BitVec 32 := 0#32
  let v84 : BitVec 1 := Scalar.cmpi .ne v83 c0_i32_47
  v84

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x64x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S8x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  transposes_S64x64_S64x64_1_0 : S64x64.Transposes [1, 0] S64x64
  bitsLt_bf16_f32 : FTy.bits .bf16 < FTy.bits .f32
  shapeCasts_S64_S1x64 : S64.ShapeCasts S1x64
  transposes_S2x3x64x64_S2x3x64x64_0_1_3_2 : S2x3x64x64.Transposes [0, 1, 3, 2] S2x3x64x64
  slices_S2x3x64x64_S2x1x64x64_0_0_0_0 : S2x3x64x64.Slices ![0, 0, 0, 0] S2x1x64x64
  shapeCasts_S2x1x64x64_S2x64x64 : S2x1x64x64.ShapeCasts S2x64x64
  slices_S2x3x64x64_S2x1x64x64_0_1_0_0 : S2x3x64x64.Slices ![0, 1, 0, 0] S2x1x64x64
  slices_S2x3x64x64_S2x1x64x64_0_2_0_0 : S2x3x64x64.Slices ![0, 2, 0, 0] S2x1x64x64
  slices_S2x3x64_S2x1x64_0_0_0 : S2x3x64.Slices ![0, 0, 0] S2x1x64
  shapeCasts_S2x1x64_S2x64 : S2x1x64.ShapeCasts S2x64
  slices_S2x3x64_S2x1x64_0_1_0 : S2x3x64.Slices ![0, 1, 0] S2x1x64
  slices_S2x3x64_S2x1x64_0_2_0 : S2x3x64.Slices ![0, 2, 0] S2x1x64
  inb_S8x64_S8x64_0_0 : ∀ a, (![0, 0] : Fin 2 → Nat) a + S8x64.size a ≤ S8x64.size a
  h_S8x64 : 0 < S8x64.numel
  shapeCasts_S8x64_S8x64 : S8x64.ShapeCasts S8x64
  inb_S8x1024x64_S8x1024x64_0_0_0 : ∀ a, (![0, 0, 0] : Fin 3 → Nat) a + S8x1024x64.size a ≤ S8x1024x64.size a
  h_S8x1024x64 : 0 < S8x1024x64.numel
  shapeCasts_S8x1024x64_S8192x64 : S8x1024x64.ShapeCasts S8192x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  inb_S2x64x64_S1x64x64_0_0_0 : ∀ a, (![0, 0, 0] : Fin 3 → Nat) a + S1x64x64.size a ≤ S2x64x64.size a
  h_S1x64x64 : 0 < S1x64x64.numel
  shapeCasts_S1x64x64_S64x64 : S1x64x64.ShapeCasts S64x64
  inb_S2x64_S1x64_0_0 : ∀ a, (![0, 0] : Fin 2 → Nat) a + S1x64.size a ≤ S2x64.size a
  shapeCasts_S1x64_S64 : S1x64.ShapeCasts S64
  inb_S2x64x64_S1x64x64_1_0_0 : ∀ a, (![1, 0, 0] : Fin 3 → Nat) a + S1x64x64.size a ≤ S2x64x64.size a
  inb_S2x64_S1x64_1_0 : ∀ a, (![1, 0] : Fin 2 → Nat) a + S1x64.size a ≤ S2x64.size a
  shapeCasts_S8192x64_S8x1024x64 : S8192x64.ShapeCasts S8x1024x64
  reduces_S8x1024x64_S8x64 : S8x1024x64.Reduces [1] S8x64
  dot_S8192x64_S64x64_S8192x64_1_0_0_1_n_n_wf : DotDims.WF S8192x64 S64x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024x64.size a ≤ S64x8192x64.size a
  hwx0_0 : ∀ i : grid0.Coords, EltTy.bits .f32 = 32 ∨ (Rect.block (s := S64x8192x64) S8x1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .bf16 = 32 ∨ (Rect.block (s := S64x64) S64x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x64x64.size a ≤ S2x64x64.size a
  hwx0_3 : ∀ i : grid0.Coords, EltTy.bits .bf16 = 32 ∨ (Rect.block (s := S2x64x64) S2x64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x64x64.size a ≤ S2x64x64.size a
  hwx0_4 : ∀ i : grid0.Coords, EltTy.bits .bf16 = 32 ∨ (Rect.block (s := S2x64x64) S2x64x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x64x64.size a ≤ S2x64x64.size a
  hwx0_5 : ∀ i : grid0.Coords, EltTy.bits .bf16 = 32 ∨ (Rect.block (s := S2x64x64) S2x64x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x64.size a ≤ S2x64.size a
  hwx0_6 : ∀ i : grid0.Coords, EltTy.bits .f32 = 32 ∨ (Rect.block (s := S2x64) S2x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2x64.size a ≤ S2x64.size a
  hwx0_7 : ∀ i : grid0.Coords, EltTy.bits .f32 = 32 ∨ (Rect.block (s := S2x64) S2x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2x64.size a ≤ S2x64.size a
  hwx0_8 : ∀ i : grid0.Coords, EltTy.bits .f32 = 32 ∨ (Rect.block (s := S2x64) S2x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8x64.size a ≤ S64x64.size a
  hwx0_9 : ∀ i : grid0.Coords, EltTy.bits .f32 = 32 ∨ (Rect.block (s := S64x64) S8x64.size (cc0_transform_9 i) (hinb0_9 i)).WholeWords (EltTy.packing .f32)

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf

abbrev win0_0 : Pipeline.Window sig grid0 :=
  Pipeline.Window.ofSpec (Memref.whole main_arg0) S8x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2x64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S2x64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S2x64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S2x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S2x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19) S2x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v20) S8x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | ⟨_ + 10, h⟩ => absurd h (Nat.not_lt.2 (Nat.le_add_left _ _))

class Facts : Prop extends Facts₀ where

variable [Facts]
-- ==== ReferenceIdeal.lean ====
abbrev S64x8192x64 : Shape := ⟨3, ![64, 8192, 64]⟩
abbrev S64x64 : Shape := ⟨2, ![64, 64]⟩
abbrev S64 : Shape := ⟨1, ![64]⟩
abbrev S2x3x64x64 : Shape := ⟨4, ![2, 3, 64, 64]⟩
abbrev S2x3x64 : Shape := ⟨3, ![2, 3, 64]⟩
abbrev S1x1x64 : Shape := ⟨3, ![1, 1, 64]⟩
abbrev S1x3x64x64 : Shape := ⟨4, ![1, 3, 64, 64]⟩
abbrev S3x64x64 : Shape := ⟨3, ![3, 64, 64]⟩
abbrev S64x8192x3x64 : Shape := ⟨4, ![64, 8192, 3, 64]⟩
abbrev S1x3x64 : Shape := ⟨3, ![1, 3, 64]⟩
abbrev S3x64 : Shape := ⟨2, ![3, 64]⟩
abbrev S1x1x3x64 : Shape := ⟨4, ![1, 1, 3, 64]⟩
abbrev S64x8192x1x64 : Shape := ⟨4, ![64, 8192, 1, 64]⟩
abbrev S_ : Shape := ⟨0, ![]⟩

abbrev nBuf : Space → Nat
  | .hbm => 93
  | .vmem => 0
  | .smem => 0
  | _ => 0

abbrev bufTy : (tb : Table) → Fin (tcTables nBuf tb) → BufTy
  | .hbm, ⟨0, _⟩ => ⟨S64x8192x64, .f32⟩
  | .hbm, ⟨1, _⟩ => ⟨S64x64, .f32⟩
  | .hbm, ⟨2, _⟩ => ⟨S64, .f32⟩
  | .hbm, ⟨3, _⟩ => ⟨S2x3x64x64, .f32⟩
  | .hbm, ⟨4, _⟩ => ⟨S2x3x64, .f32⟩
  | .hbm, ⟨5, _⟩ => ⟨S2x3x64, .f32⟩
  | .hbm, ⟨6, _⟩ => ⟨S64x8192x64, .f32⟩
  | .hbm, ⟨7, _⟩ => ⟨S1x1x64, .f32⟩
  | .hbm, ⟨8, _⟩ => ⟨S64x8192x64, .f32⟩
  | .hbm, ⟨9, _⟩ => ⟨S64x8192x64, .f32⟩
  | .hbm, ⟨10, _⟩ => ⟨S1x3x64x64, .f32⟩
  | .hbm, ⟨11, _⟩ => ⟨S3x64x64, .f32⟩
  | .hbm, ⟨12, _⟩ => ⟨S64x8192x3x64, .f32⟩
  | .hbm, ⟨13, _⟩ => ⟨S1x3x64, .f32⟩
  | .hbm, ⟨14, _⟩ => ⟨S3x64, .f32⟩
  | .hbm, ⟨15, _⟩ => ⟨S1x1x3x64, .f32⟩
  | .hbm, ⟨16, _⟩ => ⟨S64x8192x3x64, .f32⟩
  | .hbm, ⟨17, _⟩ => ⟨S64x8192x3x64, .f32⟩
  | .hbm, ⟨18, _⟩ => ⟨S1x3x64, .f32⟩
  | .hbm, ⟨19, _⟩ => ⟨S3x64, .f32⟩
  | .hbm, ⟨20, _⟩ => ⟨S1x1x3x64, .f32⟩
  | .hbm, ⟨21, _⟩ => ⟨S64x8192x3x64, .f32⟩
  | .hbm, ⟨22, _⟩ => ⟨S64x8192x3x64, .f32⟩
  | .hbm, ⟨23, _⟩ => ⟨S64x8192x1x64, .f32⟩
  | .hbm, ⟨24, _⟩ => ⟨S64x8192x64, .f32⟩
  | .hbm, ⟨25, _⟩ => ⟨S64x8192x64, .f32⟩
  | .hbm, ⟨26, _⟩ => ⟨S64x8192x64, .f32⟩
  | .hbm, ⟨27, _⟩ => ⟨S_, .f32⟩
  | .hbm, ⟨28, _⟩ => ⟨S64x8192x64, .f32⟩
  | .hbm, ⟨29, _⟩ => ⟨S64x8192x64, .f32⟩
  | .hbm, ⟨30, _⟩ => ⟨S_, .f32⟩
  | .hbm, ⟨31, _⟩ => ⟨S64x8192x64, .f32⟩
  | .hbm, ⟨32, _⟩ => ⟨S64x8192x64, .f32⟩
  | .hbm, ⟨33, _⟩ => ⟨S64x8192x1x64, .f32⟩
  | .hbm, ⟨34, _⟩ => ⟨S64x8192x64, .f32⟩
  | .hbm, ⟨35, _⟩ => ⟨S64x8192x64, .f32⟩
  | .hbm, ⟨36, _⟩ => ⟨S64x8192x64, .f32⟩
  | .hbm, ⟨37, _⟩ => ⟨S_, .f32⟩
  | .hbm, ⟨38, _⟩ => ⟨S64x8192x64, .f32⟩
  | .hbm, ⟨39, _⟩ => ⟨S64x8192x64, .f32⟩
  | .hbm, ⟨40, _⟩ => ⟨S_, .f32⟩
  | .hbm, ⟨41, _⟩ => ⟨S64x8192x64, .f32⟩
  | .hbm, ⟨42, _⟩ => ⟨S64x8192x64, .f32⟩
  | .hbm, ⟨43, _⟩ => ⟨S64x8192x1x64, .f32⟩
  | .hbm, ⟨44, _⟩ => ⟨S64x8192x64, .f32⟩
  | .hbm, ⟨45, _⟩ => ⟨S64x8192x64, .f32⟩
  | .hbm, ⟨46, _⟩ => ⟨S64x8192x64, .f32⟩
  | .hbm, ⟨47, _⟩ => ⟨S64x8192x64, .f32⟩
  | .hbm, ⟨48, _⟩ => ⟨S64x8192x64, .f32⟩
  | .hbm, ⟨49, _⟩ => ⟨S1x3x64x64, .f32⟩
  | .hbm, ⟨50, _⟩ => ⟨S3x64x64, .f32⟩
  | .hbm, ⟨51, _⟩ => ⟨S64x8192x3x64, .f32⟩
  | .hbm, ⟨52, _⟩ => ⟨S1x3x64, .f32⟩
  | .hbm, ⟨53, _⟩ => ⟨S3x64, .f32⟩
  | .hbm, ⟨54, _⟩ => ⟨S1x1x3x64, .f32⟩
  | .hbm, ⟨55, _⟩ => ⟨S64x8192x3x64, .f32⟩
  | .hbm, ⟨56, _⟩ => ⟨S64x8192x3x64, .f32⟩
  | .hbm, ⟨57, _⟩ => ⟨S1x3x64, .f32⟩
  | .hbm, ⟨58, _⟩ => ⟨S3x64, .f32⟩
  | .hbm, ⟨59, _⟩ => ⟨S1x1x3x64, .f32⟩
  | .hbm, ⟨60, _⟩ => ⟨S64x8192x3x64, .f32⟩
  | .hbm, ⟨61, _⟩ => ⟨S64x8192x3x64, .f32⟩
  | .hbm, ⟨62, _⟩ => ⟨S64x8192x1x64, .f32⟩
  | .hbm, ⟨63, _⟩ => ⟨S64x8192x64, .f32⟩
  | .hbm, ⟨64, _⟩ => ⟨S64x8192x64, .f32⟩
  | .hbm, ⟨65, _⟩ => ⟨S64x8192x64, .f32⟩
  | .hbm, ⟨66, _⟩ => ⟨S_, .f32⟩
  | .hbm, ⟨67, _⟩ => ⟨S64x8192x64, .f32⟩
  | .hbm, ⟨68, _⟩ => ⟨S64x8192x64, .f32⟩
  | .hbm, ⟨69, _⟩ => ⟨S_, .f32⟩
  | .hbm, ⟨70, _⟩ => ⟨S64x8192x64, .f32⟩
  | .hbm, ⟨71, _⟩ => ⟨S64x8192x64, .f32⟩
  | .hbm, ⟨72, _⟩ => ⟨S64x8192x1x64, .f32⟩
  | .hbm, ⟨73, _⟩ => ⟨S64x8192x64, .f32⟩
  | .hbm, ⟨74, _⟩ => ⟨S64x8192x64, .f32⟩
  | .hbm, ⟨75, _⟩ => ⟨S64x8192x64, .f32⟩
  | .hbm, ⟨76, _⟩ => ⟨S_, .f32⟩
  | .hbm, ⟨77, _⟩ => ⟨S64x8192x64, .f32⟩
  | .hbm, ⟨78, _⟩ => ⟨S64x8192x64, .f32⟩
  | .hbm, ⟨79, _⟩ => ⟨S_, .f32⟩
  | .hbm, ⟨80, _⟩ => ⟨S64x8192x64, .f32⟩
  | .hbm, ⟨81, _⟩ => ⟨S64x8192x64, .f32⟩
  | .hbm, ⟨82, _⟩ => ⟨S64x8192x1x64, .f32⟩
  | .hbm, ⟨83, _⟩ => ⟨S64x8192x64, .f32⟩
  | .hbm, ⟨84, _⟩ => ⟨S64x8192x64, .f32⟩
  | .hbm, ⟨85, _⟩ => ⟨S64x8192x64, .f32⟩
  | .hbm, ⟨86, _⟩ => ⟨S64x8192x64, .f32⟩
  | .hbm, ⟨87, _⟩ => ⟨S64x8192x64, .f32⟩
  | .hbm, ⟨88, _⟩ => ⟨S_, .f32⟩
  | .hbm, ⟨89, _⟩ => ⟨S64x64, .f32⟩
  | .hbm, ⟨90, _⟩ => ⟨S_, .f32⟩
  | .hbm, ⟨91, _⟩ => ⟨S64x64, .f32⟩
  | .hbm, ⟨92, _⟩ => ⟨S64x64, .f32⟩
  | _, _ => ⟨S64x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst : Ref sig .tc := ⟨.hbm, 27, rfl⟩
abbrev main_v21 : Ref sig .tc := ⟨.hbm, 28, rfl⟩
abbrev main_v22 : Ref sig .tc := ⟨.hbm, 29, rfl⟩
abbrev main_cst_0 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_1 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_cst_3 : Ref sig .tc := ⟨.hbm, 66, rfl⟩
abbrev main_v56 : Ref sig .tc := ⟨.hbm, 67, rfl⟩
abbrev main_v57 : Ref sig .tc := ⟨.hbm, 68, rfl⟩
abbrev main_cst_4 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_cst_5 : Ref sig .tc := ⟨.hbm, 76, rfl⟩
abbrev main_v64 : Ref sig .tc := ⟨.hbm, 77, rfl⟩
abbrev main_v65 : Ref sig .tc := ⟨.hbm, 78, rfl⟩
abbrev main_cst_6 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_cst_7 : Ref sig .tc := ⟨.hbm, 88, rfl⟩
abbrev main_v74 : Ref sig .tc := ⟨.hbm, 89, rfl⟩
abbrev main_cst_8 : Ref sig .tc := ⟨.hbm, 90, rfl⟩
abbrev main_v75 : Ref sig .tc := ⟨.hbm, 91, rfl⟩
abbrev main_v76 : Ref sig .tc := ⟨.hbm, 92, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S64x8192x64_0_1_2 : S1x1x64.BroadcastsInDim S64x8192x64 (![0, 1, 2] : Fin 3 → Fin S64x8192x64.rank)
  slices_S2x3x64x64_S1x3x64x64_0_0_0_0 : S2x3x64x64.Slices ![0, 0, 0, 0] S1x3x64x64
  shapeCasts_S1x3x64x64_S3x64x64 : S1x3x64x64.ShapeCasts S3x64x64
  slices_S2x3x64_S1x3x64_0_0_0 : S2x3x64.Slices ![0, 0, 0] S1x3x64
  shapeCasts_S1x3x64_S3x64 : S1x3x64.ShapeCasts S3x64
  bcast_S3x64_S1x1x3x64_2_3 : S3x64.BroadcastsInDim S1x1x3x64 (![2, 3] : Fin 2 → Fin S1x1x3x64.rank)
  bcast_S1x1x3x64_S64x8192x3x64_0_1_2_3 : S1x1x3x64.BroadcastsInDim S64x8192x3x64 (![0, 1, 2, 3] : Fin 4 → Fin S64x8192x3x64.rank)
  slices_S64x8192x3x64_S64x8192x1x64_0_0_0_0 : S64x8192x3x64.Slices ![0, 0, 0, 0] S64x8192x1x64
  shapeCasts_S64x8192x1x64_S64x8192x64 : S64x8192x1x64.ShapeCasts S64x8192x64
  bcast_S_S64x8192x64 : S_.BroadcastsInDim S64x8192x64 (![] : Fin 0 → Fin S64x8192x64.rank)
  slices_S64x8192x3x64_S64x8192x1x64_0_0_1_0 : S64x8192x3x64.Slices ![0, 0, 1, 0] S64x8192x1x64
  slices_S64x8192x3x64_S64x8192x1x64_0_0_2_0 : S64x8192x3x64.Slices ![0, 0, 2, 0] S64x8192x1x64
  slices_S2x3x64x64_S1x3x64x64_1_0_0_0 : S2x3x64x64.Slices ![1, 0, 0, 0] S1x3x64x64
  slices_S2x3x64_S1x3x64_1_0_0 : S2x3x64.Slices ![1, 0, 0] S1x3x64
  reducesTo_S64x8192x64_S64x64_d1 : S64x8192x64.ReducesTo [1] S64x64
  h_S_ : 0 < S_.numel
  bcast_S_S64x64 : S_.BroadcastsInDim S64x64 (![] : Fin 0 → Fin S64x64.rank)
  dot_S64x8192x64_S64x64_S64x8192x64_2_1_01_0_n_n_wf : DotDims.WF S64x8192x64 S64x64 S64x8192x64 [2] [1] [0, 1] [0] [] []
  dot_S64x8192x64_S3x64x64_S64x8192x3x64_2_2_01_01_n_n_wf : DotDims.WF S64x8192x64 S3x64x64 S64x8192x3x64 [2] [2] [0, 1] [0, 1] [] []

variable [Facts₀]

def dot_S64x8192x64_S64x64_S64x8192x64_2_1_01_0_n_n : DotDims S64x8192x64 S64x64 S64x8192x64 where
  lhsContracting := [2]
  rhsContracting := [1]
  lhsNonContracting := [0, 1]
  rhsNonContracting := [0]
  lhsBatch := []
  rhsBatch := []
  wf := dot_S64x8192x64_S64x64_S64x8192x64_2_1_01_0_n_n_wf
def dot_S64x8192x64_S3x64x64_S64x8192x3x64_2_2_01_01_n_n : DotDims S64x8192x64 S3x64x64 S64x8192x3x64 where
  lhsContracting := [2]
  rhsContracting := [2]
  lhsNonContracting := [0, 1]
  rhsNonContracting := [0, 1]
  lhsBatch := []
  rhsBatch := []
  wf := dot_S64x8192x64_S3x64x64_S64x8192x3x64_2_2_01_01_n_n_wf

class Facts : Prop extends Facts₀ where

variable [Facts]
-- ==== Proof.Blocks.lean ====
/-
  What the grid points find in their windows, in terms of the six arguments.

  Before the grid runs the host prepares, from the arguments, the arrays the windows stage: the embedding weight
  transposed, the embedding bias as a one-row matrix, for each gate `g` the stack over the two layers of that gate's
  weight transposed, and for each gate the stack of the two bias arrays' sum. The first part reads each of those
  arrays at an index. The second decides the windows' index maps over the 64 grid points — point `t` is tile
  `t % 8` of the sweep over trees `8·(t / 8) … 8·(t / 8) + 7`; every other input is the same whole array at every
  point; the output block is the sweep's 8 rows — and reads each window's block at coordinates.
-/
import proofs.«160879_j67611375173685_2_alg».proof.Proof.Gen.KernelIdeal.Frame
import Idealize.ShloMosaic.Lib.Pipeline.Value
import Idealize.ShloMosaic.Lib.StableHlo.Run
import Idealize.ShloMosaic.Lib.ValueIdx

noncomputable section

namespace Cert.KernelIdeal.Body

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The six arguments on core `c`, as arrays of extended reals: node features, embedding weight and bias, gate
    weights, and the two gate bias arrays. -/
abbrev argX (c : Dev nD) : S64x8192x64.Idx → EReal := m ((c : Thread nD τ).loc main_arg0)
abbrev argWe (c : Dev nD) : S64x64.Idx → EReal := m ((c : Thread nD τ).loc main_arg1)
abbrev argBe (c : Dev nD) : S64.Idx → EReal := m ((c : Thread nD τ).loc main_arg2)
abbrev argWx (c : Dev nD) : S2x3x64x64.Idx → EReal := m ((c : Thread nD τ).loc main_arg3)
abbrev argBW (c : Dev nD) : S2x3x64.Idx → EReal := m ((c : Thread nD τ).loc main_arg4)
abbrev argBU (c : Dev nD) : S2x3x64.Idx → EReal := m ((c : Thread nD τ).loc main_arg5)

/-! ## The staged arrays at an index -/

/-- The embedding weight as staged: transposed. -/
theorem embWeight_apply (c : Dev nD) (f i : Fin 64) :
    (V m c main_v1 : S64x64.Idx → Ideal .bf16) (ix2 f i) = argWe m c (ix2 i f) := by
  have e : @Eq (S64x64.Idx → Ideal .bf16) (V m c main_v1)
      (truncf (F := Ideal) .bf16 (transpose S64x64 [1, 0] (argWe m c) Facts₀.transposes_S64x64_S64x64_1_0) Facts₀.bitsLt_bf16_f32) := by
    dsimp only [Gen.V, Gen.hostOps0]; after_results
  rw [e, truncf_apply]
  exact transpose_apply [1, 0] _ _ (ix2 f i) (ix2 i f) (fun b => match b with | ⟨0, _⟩ => rfl | ⟨1, _⟩ => rfl)

/-- The embedding bias as staged: a one-row matrix. -/
theorem embBias_apply (c : Dev nD) (i : Fin 64) :
    (V m c main_v2 : S1x64.Idx → Ideal .f32) (ix2 0 i) = argBe m c (ix1 i) := by
  have e : @Eq (S1x64.Idx → Ideal .f32) (V m c main_v2) (shapeCast S1x64 (argBe m c) Facts₀.shapeCasts_S64_S1x64) := by
    dsimp only [Gen.V, Gen.hostOps0]; after_results; try rfl
  rw [e]
  exact shapeCast_apply _ _ (ix2 0 i : S1x64.Idx) (ix1 i : S64.Idx) (by
    rw [Shape.rowMajor_val_one, Shape.rowMajor_val_two]
    show i.val = (0 : Fin 1).val * 64 + i.val
    simp)

/-- Gate 0's weight stack as staged: layer `l`'s weight transposed. -/
theorem gateWeight0_apply (c : Dev nD) (l : Fin 2) (i o : Fin 64) :
    (V m c main_v6 : S2x64x64.Idx → Ideal .bf16) (ix3 l i o) = argWx m c (ix4 l 0 o i) := by
  have e : @Eq (S2x64x64.Idx → Ideal .bf16) (V m c main_v6)
      (truncf (F := Ideal) .bf16 (shapeCast S2x64x64 (extractStridedSlice S2x1x64x64 ![0, 0, 0, 0]
        (transpose S2x3x64x64 [0, 1, 3, 2] (argWx m c) Facts₀.transposes_S2x3x64x64_S2x3x64x64_0_1_3_2)
        Facts₀.slices_S2x3x64x64_S2x1x64x64_0_0_0_0) Facts₀.shapeCasts_S2x1x64x64_S2x64x64) Facts₀.bitsLt_bf16_f32) := by
    dsimp only [Gen.V, Gen.hostOps0]; after_results; try rfl
  rw [e, truncf_apply]
  refine (shapeCast_apply _ _ (ix3 l i o : S2x64x64.Idx) (ix4 l (0 : Fin 1) i o : S2x1x64x64.Idx) (by
    rw [Shape.rowMajor_val_four, Shape.rowMajor_val_three]
    show ((l.val * 1 + (0 : Fin 1).val) * 64 + i.val) * 64 + o.val = (l.val * 64 + i.val) * 64 + o.val
    simp)).trans ?_
  refine (extractStridedSlice_apply ![0, 0, 0, 0] _ _ (ix4 l (0 : Fin 1) i o : S2x1x64x64.Idx)
    (ix4 l (0 : Fin 3) i o : S2x3x64x64.Idx) (fun a => match a with
    | ⟨0, _⟩ => by show l.val = 0 + l.val; omega
    | ⟨1, _⟩ => by show (0 : Fin 3).val = 0 + (0 : Fin 1).val; rfl
    | ⟨2, _⟩ => by show i.val = 0 + i.val; omega
    | ⟨3, _⟩ => by show o.val = 0 + o.val; omega)).trans ?_
  exact transpose_apply [0, 1, 3, 2] _ _ (ix4 l (0 : Fin 3) i o : S2x3x64x64.Idx) (ix4 l (0 : Fin 3) o i : S2x3x64x64.Idx)
    (fun b => match b with | ⟨0, _⟩ => rfl | ⟨1, _⟩ => rfl | ⟨2, _⟩ => rfl | ⟨3, _⟩ => rfl)

/-- Gate 1's weight stack as staged: layer `l`'s weight transposed. -/
theorem gateWeight1_apply (c : Dev nD) (l : Fin 2) (i o : Fin 64) :
    (V m c main_v9 : S2x64x64.Idx → Ideal .bf16) (ix3 l i o) = argWx m c (ix4 l 1 o i) := by
  have e : @Eq (S2x64x64.Idx → Ideal .bf16) (V m c main_v9)
      (truncf (F := Ideal) .bf16 (shapeCast S2x64x64 (extractStridedSlice S2x1x64x64 ![0, 1, 0, 0]
        (transpose S2x3x64x64 [0, 1, 3, 2] (argWx m c) Facts₀.transposes_S2x3x64x64_S2x3x64x64_0_1_3_2)
        Facts₀.slices_S2x3x64x64_S2x1x64x64_0_1_0_0) Facts₀.shapeCasts_S2x1x64x64_S2x64x64) Facts₀.bitsLt_bf16_f32) := by
    dsimp only [Gen.V, Gen.hostOps0]; after_results; try rfl
  rw [e, truncf_apply]
  refine (shapeCast_apply _ _ (ix3 l i o : S2x64x64.Idx) (ix4 l (0 : Fin 1) i o : S2x1x64x64.Idx) (by
    rw [Shape.rowMajor_val_four, Shape.rowMajor_val_three]
    show ((l.val * 1 + (0 : Fin 1).val) * 64 + i.val) * 64 + o.val = (l.val * 64 + i.val) * 64 + o.val
    simp)).trans ?_
  refine (extractStridedSlice_apply ![0, 1, 0, 0] _ _ (ix4 l (0 : Fin 1) i o : S2x1x64x64.Idx)
    (ix4 l (1 : Fin 3) i o : S2x3x64x64.Idx) (fun a => match a with
    | ⟨0, _⟩ => by show l.val = 0 + l.val; omega
    | ⟨1, _⟩ => by show (1 : Fin 3).val = 1 + (0 : Fin 1).val; rfl
    | ⟨2, _⟩ => by show i.val = 0 + i.val; omega
    | ⟨3, _⟩ => by show o.val = 0 + o.val; omega)).trans ?_
  exact transpose_apply [0, 1, 3, 2] _ _ (ix4 l (1 : Fin 3) i o : S2x3x64x64.Idx) (ix4 l (1 : Fin 3) o i : S2x3x64x64.Idx)
    (fun b => match b with | ⟨0, _⟩ => rfl | ⟨1, _⟩ => rfl | ⟨2, _⟩ => rfl | ⟨3, _⟩ => rfl)

/-- Gate 2's weight stack as staged: layer `l`'s weight transposed. -/
theorem gateWeight2_apply (c : Dev nD) (l : Fin 2) (i o : Fin 64) :
    (V m c main_v12 : S2x64x64.Idx → Ideal .bf16) (ix3 l i o) = argWx m c (ix4 l 2 o i) := by
  have e : @Eq (S2x64x64.Idx → Ideal .bf16) (V m c main_v12)
      (truncf (F := Ideal) .bf16 (shapeCast S2x64x64 (extractStridedSlice S2x1x64x64 ![0, 2, 0, 0]
        (transpose S2x3x64x64 [0, 1, 3, 2] (argWx m c) Facts₀.transposes_S2x3x64x64_S2x3x64x64_0_1_3_2)
        Facts₀.slices_S2x3x64x64_S2x1x64x64_0_2_0_0) Facts₀.shapeCasts_S2x1x64x64_S2x64x64) Facts₀.bitsLt_bf16_f32) := by
    dsimp only [Gen.V, Gen.hostOps0]; after_results; try rfl
  rw [e, truncf_apply]
  refine (shapeCast_apply _ _ (ix3 l i o : S2x64x64.Idx) (ix4 l (0 : Fin 1) i o : S2x1x64x64.Idx) (by
    rw [Shape.rowMajor_val_four, Shape.rowMajor_val_three]
    show ((l.val * 1 + (0 : Fin 1).val) * 64 + i.val) * 64 + o.val = (l.val * 64 + i.val) * 64 + o.val
    simp)).trans ?_
  refine (extractStridedSlice_apply ![0, 2, 0, 0] _ _ (ix4 l (0 : Fin 1) i o : S2x1x64x64.Idx)
    (ix4 l (2 : Fin 3) i o : S2x3x64x64.Idx) (fun a => match a with
    | ⟨0, _⟩ => by show l.val = 0 + l.val; omega
    | ⟨1, _⟩ => by show (2 : Fin 3).val = 2 + (0 : Fin 1).val; rfl
    | ⟨2, _⟩ => by show i.val = 0 + i.val; omega
    | ⟨3, _⟩ => by show o.val = 0 + o.val; omega)).trans ?_
  exact transpose_apply [0, 1, 3, 2] _ _ (ix4 l (2 : Fin 3) i o : S2x3x64x64.Idx) (ix4 l (2 : Fin 3) o i : S2x3x64x64.Idx)
    (fun b => match b with | ⟨0, _⟩ => rfl | ⟨1, _⟩ => rfl | ⟨2, _⟩ => rfl | ⟨3, _⟩ => rfl)

/-- Gate 0's bias stack as staged: layer `l`'s row of the two bias arrays' sum. -/
theorem gateBias0_apply (c : Dev nD) (l : Fin 2) (o : Fin 64) :
    (V m c main_v15 : S2x64.Idx → Ideal .f32) (ix2 l o) = argBW m c (ix3 l 0 o) + argBU m c (ix3 l 0 o) := by
  have e : @Eq (S2x64.Idx → Ideal .f32) (V m c main_v15)
      (shapeCast S2x64 (extractStridedSlice S2x1x64 ![0, 0, 0]
        (addf (F := Ideal) (s := S2x3x64) (φ := .f32) (argBW m c) (argBU m c))
        Facts₀.slices_S2x3x64_S2x1x64_0_0_0) Facts₀.shapeCasts_S2x1x64_S2x64) := by
    dsimp only [Gen.V, Gen.hostOps0]; after_results; try rfl
  rw [e]
  refine (shapeCast_apply _ _ (ix2 l o : S2x64.Idx) (ix3 l (0 : Fin 1) o : S2x1x64.Idx) (by
    rw [Shape.rowMajor_val_three, Shape.rowMajor_val_two]
    show (l.val * 1 + (0 : Fin 1).val) * 64 + o.val = l.val * 64 + o.val
    simp)).trans ?_
  exact extractStridedSlice_apply ![0, 0, 0] _ _ (ix3 l (0 : Fin 1) o : S2x1x64.Idx) (ix3 l (0 : Fin 3) o : S2x3x64.Idx)
    (fun a => match a with
    | ⟨0, _⟩ => by show l.val = 0 + l.val; omega
    | ⟨1, _⟩ => by show (0 : Fin 3).val = 0 + (0 : Fin 1).val; rfl
    | ⟨2, _⟩ => by show o.val = 0 + o.val; omega)

/-- Gate 1's bias stack as staged: layer `l`'s row of the two bias arrays' sum. -/
theorem gateBias1_apply (c : Dev nD) (l : Fin 2) (o : Fin 64) :
    (V m c main_v17 : S2x64.Idx → Ideal .f32) (ix2 l o) = argBW m c (ix3 l 1 o) + argBU m c (ix3 l 1 o) := by
  have e : @Eq (S2x64.Idx → Ideal .f32) (V m c main_v17)
      (shapeCast S2x64 (extractStridedSlice S2x1x64 ![0, 1, 0]
        (addf (F := Ideal) (s := S2x3x64) (φ := .f32) (argBW m c) (argBU m c))
        Facts₀.slices_S2x3x64_S2x1x64_0_1_0) Facts₀.shapeCasts_S2x1x64_S2x64) := by
    dsimp only [Gen.V, Gen.hostOps0]; after_results; try rfl
  rw [e]
  refine (shapeCast_apply _ _ (ix2 l o : S2x64.Idx) (ix3 l (0 : Fin 1) o : S2x1x64.Idx) (by
    rw [Shape.rowMajor_val_three, Shape.rowMajor_val_two]
    show (l.val * 1 + (0 : Fin 1).val) * 64 + o.val = l.val * 64 + o.val
    simp)).trans ?_
  exact extractStridedSlice_apply ![0, 1, 0] _ _ (ix3 l (0 : Fin 1) o : S2x1x64.Idx) (ix3 l (1 : Fin 3) o : S2x3x64.Idx)
    (fun a => match a with
    | ⟨0, _⟩ => by show l.val = 0 + l.val; omega
    | ⟨1, _⟩ => by show (1 : Fin 3).val = 1 + (0 : Fin 1).val; rfl
    | ⟨2, _⟩ => by show o.val = 0 + o.val; omega)

/-- Gate 2's bias stack as staged: layer `l`'s row of the two bias arrays' sum. -/
theorem gateBias2_apply (c : Dev nD) (l : Fin 2) (o : Fin 64) :
    (V m c main_v19 : S2x64.Idx → Ideal .f32) (ix2 l o) = argBW m c (ix3 l 2 o) + argBU m c (ix3 l 2 o) := by
  have e : @Eq (S2x64.Idx → Ideal .f32) (V m c main_v19)
      (shapeCast S2x64 (extractStridedSlice S2x1x64 ![0, 2, 0]
        (addf (F := Ideal) (s := S2x3x64) (φ := .f32) (argBW m c) (argBU m c))
        Facts₀.slices_S2x3x64_S2x1x64_0_2_0) Facts₀.shapeCasts_S2x1x64_S2x64) := by
    dsimp only [Gen.V, Gen.hostOps0]; after_results; try rfl
  rw [e]
  refine (shapeCast_apply _ _ (ix2 l o : S2x64.Idx) (ix3 l (0 : Fin 1) o : S2x1x64.Idx) (by
    rw [Shape.rowMajor_val_three, Shape.rowMajor_val_two]
    show (l.val * 1 + (0 : Fin 1).val) * 64 + o.val = l.val * 64 + o.val
    simp)).trans ?_
  exact extractStridedSlice_apply ![0, 2, 0] _ _ (ix3 l (0 : Fin 1) o : S2x1x64.Idx) (ix3 l (2 : Fin 3) o : S2x3x64.Idx)
    (fun a => match a with
    | ⟨0, _⟩ => by show l.val = 0 + l.val; omega
    | ⟨1, _⟩ => by show (2 : Fin 3).val = 2 + (0 : Fin 1).val; rfl
    | ⟨2, _⟩ => by show o.val = 0 + o.val; omega)

/-! ## The windows' index maps, decided over the grid -/

/-- The feature window moves with the point — block `(t / 8, t % 8, 0)` — and the output window with the sweep — block
    `(t / 8, 0)`. -/
theorem idx_moving : ∀ t : Fin cfg0.N,
    win0_0.index t (0 : Fin 3) = t.val / 8 ∧ win0_0.index t (1 : Fin 3) = t.val % 8 ∧ win0_0.index t (2 : Fin 3) = 0
    ∧ win0_9.index t (0 : Fin 2) = t.val / 8 ∧ win0_9.index t (1 : Fin 2) = 0 :=
  (by decide +kernel : ∀ t : Fin grid0.N, _)

/-- Every other window's block is block zero at every point: the whole array. -/
theorem idx_resident : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 3) = 0 ∧ win0_3.index t (1 : Fin 3) = 0 ∧ win0_3.index t (2 : Fin 3) = 0)
    ∧ (win0_4.index t (0 : Fin 3) = 0 ∧ win0_4.index t (1 : Fin 3) = 0 ∧ win0_4.index t (2 : Fin 3) = 0)
    ∧ (win0_5.index t (0 : Fin 3) = 0 ∧ win0_5.index t (1 : Fin 3) = 0 ∧ win0_5.index t (2 : Fin 3) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-- The tree, and the node, that in-block coordinates name at point `t`. -/
def treeAt (t : Fin cfg0.N) (r : Fin 8) : Fin 64 :=
  ⟨8 * (t.val / 8) + r.val, by have := lt_of_lt_of_eq t.isLt (show cfg0.N = 64 from N_0); have := r.isLt; omega⟩
def nodeAt (t : Fin cfg0.N) (nn : Fin 1024) : Fin 8192 :=
  ⟨1024 * (t.val % 8) + nn.val, by have := nn.isLt; omega⟩

/-! ## The input blocks at coordinates -/

/-- The feature block at point `t`: rows `8·(t / 8) …` of trees, nodes `1024·(t % 8) …`. -/
theorem featBlock_apply (c : Dev nD) (t : Fin cfg0.N) (r : Fin 8) (nn : Fin 1024) (f : Fin 64) :
    (iblk m c 0 t : S8x1024x64.Idx → Ideal .f32) (ix3 r nn f) = argX m c (ix3 (treeAt t r) (nodeAt t nn) f) := by
  obtain ⟨e0, e1, e2, -, -⟩ := idx_moving t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 3) * 8 + 1 * r.val = 8 * (t.val / 8) + r.val; rw [e0]; omega
  | ⟨1, _⟩ => show win0_0.index t (1 : Fin 3) * 1024 + 1 * nn.val = 1024 * (t.val % 8) + nn.val; rw [e1]; omega
  | ⟨2, _⟩ => show win0_0.index t (2 : Fin 3) * 64 + 1 * f.val = f.val; rw [e2]; omega

/-- Window 1's block at any point is its whole staged array. -/
theorem resident1_apply (c : Dev nD) (t : Fin cfg0.N) (a0 : Fin 64) (a1 : Fin 64) :
    (iblk m c 1 t : S64x64.Idx → Ideal .bf16) (ix2 a0 a1) = (V m c main_v1 : S64x64.Idx → Ideal .bf16) (ix2 a0 a1) := by
  obtain ⟨h, -, -, -, -, -, -, -⟩ := idx_resident t
  obtain ⟨h0, h1⟩ := h
  unfold iblk
  rw [View.read_apply]
  show V m c main_v1 _ = V m c main_v1 _
  refine congrArg (V m c main_v1) (funext fun a => Fin.ext ?_)
  match a with
  | ⟨0, _⟩ => show win0_1.index t (0 : Fin 2) * 64 + 1 * a0.val = a0.val; rw [h0]; omega
  | ⟨1, _⟩ => show win0_1.index t (1 : Fin 2) * 64 + 1 * a1.val = a1.val; rw [h1]; omega

/-- Window 2's block at any point is its whole staged array. -/
theorem resident2_apply (c : Dev nD) (t : Fin cfg0.N) (a0 : Fin 1) (a1 : Fin 64) :
    (iblk m c 2 t : S1x64.Idx → Ideal .f32) (ix2 a0 a1) = (V m c main_v2 : S1x64.Idx → Ideal .f32) (ix2 a0 a1) := by
  obtain ⟨-, h, -, -, -, -, -, -⟩ := idx_resident t
  obtain ⟨h0, h1⟩ := h
  unfold iblk
  rw [View.read_apply]
  show V m c main_v2 _ = V m c main_v2 _
  refine congrArg (V m c main_v2) (funext fun a => Fin.ext ?_)
  match a with
  | ⟨0, _⟩ => show win0_2.index t (0 : Fin 2) * 1 + 1 * a0.val = a0.val; rw [h0]; omega
  | ⟨1, _⟩ => show win0_2.index t (1 : Fin 2) * 64 + 1 * a1.val = a1.val; rw [h1]; omega

/-- Window 3's block at any point is its whole staged array. -/
theorem resident3_apply (c : Dev nD) (t : Fin cfg0.N) (a0 : Fin 2) (a1 : Fin 64) (a2 : Fin 64) :
    (iblk m c 3 t : S2x64x64.Idx → Ideal .bf16) (ix3 a0 a1 a2) = (V m c main_v6 : S2x64x64.Idx → Ideal .bf16) (ix3 a0 a1 a2) := by
  obtain ⟨-, -, h, -, -, -, -, -⟩ := idx_resident t
  obtain ⟨h0, h1, h2⟩ := h
  unfold iblk
  rw [View.read_apply]
  show V m c main_v6 _ = V m c main_v6 _
  refine congrArg (V m c main_v6) (funext fun a => Fin.ext ?_)
  match a with
  | ⟨0, _⟩ => show win0_3.index t (0 : Fin 3) * 2 + 1 * a0.val = a0.val; rw [h0]; omega
  | ⟨1, _⟩ => show win0_3.index t (1 : Fin 3) * 64 + 1 * a1.val = a1.val; rw [h1]; omega
  | ⟨2, _⟩ => show win0_3.index t (2 : Fin 3) * 64 + 1 * a2.val = a2.val; rw [h2]; omega

/-- Window 4's block at any point is its whole staged array. -/
theorem resident4_apply (c : Dev nD) (t : Fin cfg0.N) (a0 : Fin 2) (a1 : Fin 64) (a2 : Fin 64) :
    (iblk m c 4 t : S2x64x64.Idx → Ideal .bf16) (ix3 a0 a1 a2) = (V m c main_v9 : S2x64x64.Idx → Ideal .bf16) (ix3 a0 a1 a2) := by
  obtain ⟨-, -, -, h, -, -, -, -⟩ := idx_resident t
  obtain ⟨h0, h1, h2⟩ := h
  unfold iblk
  rw [View.read_apply]
  show V m c main_v9 _ = V m c main_v9 _
  refine congrArg (V m c main_v9) (funext fun a => Fin.ext ?_)
  match a with
  | ⟨0, _⟩ => show win0_4.index t (0 : Fin 3) * 2 + 1 * a0.val = a0.val; rw [h0]; omega
  | ⟨1, _⟩ => show win0_4.index t (1 : Fin 3) * 64 + 1 * a1.val = a1.val; rw [h1]; omega
  | ⟨2, _⟩ => show win0_4.index t (2 : Fin 3) * 64 + 1 * a2.val = a2.val; rw [h2]; omega

/-- Window 5's block at any point is its whole staged array. -/
theorem resident5_apply (c : Dev nD) (t : Fin cfg0.N) (a0 : Fin 2) (a1 : Fin 64) (a2 : Fin 64) :
    (iblk m c 5 t : S2x64x64.Idx → Ideal .bf16) (ix3 a0 a1 a2) = (V m c main_v12 : S2x64x64.Idx → Ideal .bf16) (ix3 a0 a1 a2) := by
  obtain ⟨-, -, -, -, h, -, -, -⟩ := idx_resident t
  obtain ⟨h0, h1, h2⟩ := h
  unfold iblk
  rw [View.read_apply]
  show V m c main_v12 _ = V m c main_v12 _
  refine congrArg (V m c main_v12) (funext fun a => Fin.ext ?_)
  match a with
  | ⟨0, _⟩ => show win0_5.index t (0 : Fin 3) * 2 + 1 * a0.val = a0.val; rw [h0]; omega
  | ⟨1, _⟩ => show win0_5.index t (1 : Fin 3) * 64 + 1 * a1.val = a1.val; rw [h1]; omega
  | ⟨2, _⟩ => show win0_5.index t (2 : Fin 3) * 64 + 1 * a2.val = a2.val; rw [h2]; omega

/-- Window 6's block at any point is its whole staged array. -/
theorem resident6_apply (c : Dev nD) (t : Fin cfg0.N) (a0 : Fin 2) (a1 : Fin 64) :
    (iblk m c 6 t : S2x64.Idx → Ideal .f32) (ix2 a0 a1) = (V m c main_v15 : S2x64.Idx → Ideal .f32) (ix2 a0 a1) := by
  obtain ⟨-, -, -, -, -, h, -, -⟩ := idx_resident t
  obtain ⟨h0, h1⟩ := h
  unfold iblk
  rw [View.read_apply]
  show V m c main_v15 _ = V m c main_v15 _
  refine congrArg (V m c main_v15) (funext fun a => Fin.ext ?_)
  match a with
  | ⟨0, _⟩ => show win0_6.index t (0 : Fin 2) * 2 + 1 * a0.val = a0.val; rw [h0]; omega
  | ⟨1, _⟩ => show win0_6.index t (1 : Fin 2) * 64 + 1 * a1.val = a1.val; rw [h1]; omega

/-- Window 7's block at any point is its whole staged array. -/
theorem resident7_apply (c : Dev nD) (t : Fin cfg0.N) (a0 : Fin 2) (a1 : Fin 64) :
    (iblk m c 7 t : S2x64.Idx → Ideal .f32) (ix2 a0 a1) = (V m c main_v17 : S2x64.Idx → Ideal .f32) (ix2 a0 a1) := by
  obtain ⟨-, -, -, -, -, -, h, -⟩ := idx_resident t
  obtain ⟨h0, h1⟩ := h
  unfold iblk
  rw [View.read_apply]
  show V m c main_v17 _ = V m c main_v17 _
  refine congrArg (V m c main_v17) (funext fun a => Fin.ext ?_)
  match a with
  | ⟨0, _⟩ => show win0_7.index t (0 : Fin 2) * 2 + 1 * a0.val = a0.val; rw [h0]; omega
  | ⟨1, _⟩ => show win0_7.index t (1 : Fin 2) * 64 + 1 * a1.val = a1.val; rw [h1]; omega

/-- Window 8's block at any point is its whole staged array. -/
theorem resident8_apply (c : Dev nD) (t : Fin cfg0.N) (a0 : Fin 2) (a1 : Fin 64) :
    (iblk m c 8 t : S2x64.Idx → Ideal .f32) (ix2 a0 a1) = (V m c main_v19 : S2x64.Idx → Ideal .f32) (ix2 a0 a1) := by
  obtain ⟨-, -, -, -, -, -, -, h⟩ := idx_resident t
  obtain ⟨h0, h1⟩ := h
  unfold iblk
  rw [View.read_apply]
  show V m c main_v19 _ = V m c main_v19 _
  refine congrArg (V m c main_v19) (funext fun a => Fin.ext ?_)
  match a with
  | ⟨0, _⟩ => show win0_8.index t (0 : Fin 2) * 2 + 1 * a0.val = a0.val; rw [h0]; omega
  | ⟨1, _⟩ => show win0_8.index t (1 : Fin 2) * 64 + 1 * a1.val = a1.val; rw [h1]; omega

end Cert.KernelIdeal.Body

end
-- ==== Proof.LibPlainMatmul.lean ====
/-
  A plain matrix product read at a row and a column.

  For a product of an `[M, K]` matrix by a `[K, N]` matrix that contracts the first operand's second axis with the second
  operand's first axis and has no batch axis, accumulated into the zero matrix, the entry at `(i, o)` is, on the extended
  reals, the sum over `k` of the first operand at `(i, k)` times the second at `(k, o)`.  The lemma takes the four
  coordinate facts of the dimension record (which operand coordinate reads the result index, which the contraction index) as
  hypotheses, so that it serves any record with this layout, whatever its extents.
-/
import Idealize.ShloMosaic.PureOps.Ideal.Laws
import Idealize.ShloMosaic.Lib.ValueIdx

noncomputable section

open scoped BigOperators

namespace Cert.Lib.PlainMatmul

open Idealize.ShloMosaic Idealize.ShloMosaic.ValueIdx

/-- The entry `(i, o)` of `lhs · rhs` accumulated into zero is `∑ k, lhs (i, k) * rhs (k, o)`. -/
theorem matmul_zero_apply {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (l0 : ∀ (j : (⟨2, ![M, N]⟩ : Shape).Idx) (q : d.contr.Idx), (d.lhsIdx j q ⟨0, Nat.zero_lt_two⟩).val = (j ⟨0, Nat.zero_lt_two⟩).val)
    (l1 : ∀ (j : (⟨2, ![M, N]⟩ : Shape).Idx) (q : d.contr.Idx), (d.lhsIdx j q ⟨1, Nat.one_lt_two⟩).val = (q ⟨0, by omega⟩).val)
    (r0 : ∀ (j : (⟨2, ![M, N]⟩ : Shape).Idx) (q : d.contr.Idx), (d.rhsIdx j q ⟨0, Nat.zero_lt_two⟩).val = (q ⟨0, by omega⟩).val)
    (r1 : ∀ (j : (⟨2, ![M, N]⟩ : Shape).Idx) (q : d.contr.Idx), (d.rhsIdx j q ⟨1, Nat.one_lt_two⟩).val = (j ⟨1, Nat.one_lt_two⟩).val)
    (prec : Option ContractPrecision) (lhs : FVec Ideal ⟨2, ![M, K]⟩ φ₁) (rhs : FVec Ideal ⟨2, ![K, N]⟩ φ₂)
    (i : Fin M) (o : Fin N) :
    matmul d prec lhs rhs (constant ⟨2, ![M, N]⟩ .f32 0x00000000#32) (ix2 i o)
      = ∑ k : Fin K, lhs (ix2 i k) * rhs (ix2 k o) := by
  refine (Ideal.matmul_constant_zero_apply d prec lhs rhs (ix2 i o)).trans ?_
  rw [← Equiv.sum_comp (contrEquiv1 d K hr hs).symm]
  refine Finset.sum_congr rfl fun k _ => ?_
  have hk := contrEquiv1_symm_val d K hr hs k
  have el : d.lhsIdx (ix2 i o) ((contrEquiv1 d K hr hs).symm k) = ix2 i k := funext fun a => Fin.ext (by
    match a with
    | ⟨0, _⟩ => exact l0 _ _
    | ⟨1, _⟩ => exact (l1 _ _).trans hk)
  have er : d.rhsIdx (ix2 i o) ((contrEquiv1 d K hr hs).symm k) = ix2 k o := funext fun a => Fin.ext (by
    match a with
    | ⟨0, _⟩ => exact (r0 _ _).trans hk
    | ⟨1, _⟩ => exact r1 _ _)
  rw [el, er]

end Cert.Lib.PlainMatmul

end
-- ==== Proof.Dense.lean ====
/-
  The kernel body's building blocks, read at a row and a column on the extended reals.

  Inside a grid point the body flattens its block of 8 trees × 1024 nodes into one matrix of 8192 rows — node `nn` of
  tree `r` is row `1024·r + nn` — and every layer is a plain matrix product of that matrix with a 64 × 64 weight taken
  out of a stack of two, plus a bias row taken out of a stack of two and repeated down the rows. This module reads
  each of these steps at coordinates: the flattening and its inverse, the weight out of its stack, the bias row
  through its two reshapes and its repetition, the product into the zero matrix as a sum over the contracted
  coordinate, and the sum over a tree's 1024 nodes.
-/
import proofs.«160879_j67611375173685_2_alg».proof.Proof.Gen.KernelIdeal
import proofs.«160879_j67611375173685_2_alg».proof.Proof.LibPlainMatmul
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Cert.KernelIdeal.Facts₀ Idealize.ShloMosaic Idealize.ShloMosaic.ValueIdx

/-- Row `1024·r + nn` of the flattened block: node `nn` of the block's tree `r`. -/
def rowIx (r : Fin 8) (nn : Fin 1024) : Fin 8192 := ⟨1024 * r.val + nn.val, by have := r.isLt; have := nn.isLt; omega⟩

/-- Flattening `[8, 1024, 64] → [8192, 64]`: row `1024·r + nn` is the block's `(r, nn)` row. -/
theorem flatten_apply {α : Type} (X : S8x1024x64.Idx → α) (h : S8x1024x64.ShapeCasts S8192x64) (r : Fin 8) (nn : Fin 1024)
    (f : Fin 64) : shapeCast S8192x64 X h (ix2 (rowIx r nn) f) = X (ix3 r nn f) :=
  shapeCast_apply X h _ _ (by
    rw [Shape.rowMajor_val_three, Shape.rowMajor_val_two]
    show (r.val * 1024 + nn.val) * 64 + f.val = (1024 * r.val + nn.val) * 64 + f.val
    omega)

/-- and back, `[8192, 64] → [8, 1024, 64]`. -/
theorem unflatten_apply {α : Type} (Y : S8192x64.Idx → α) (h : S8192x64.ShapeCasts S8x1024x64) (r : Fin 8) (nn : Fin 1024)
    (o : Fin 64) : shapeCast S8x1024x64 Y h (ix3 r nn o) = Y (ix2 (rowIx r nn) o) :=
  shapeCast_apply Y h _ _ (by
    rw [Shape.rowMajor_val_three, Shape.rowMajor_val_two]
    show (1024 * r.val + nn.val) * 64 + o.val = (r.val * 1024 + nn.val) * 64 + o.val
    omega)

/-- A `[1, 64, 64]` piece of a weight stack as a `[64, 64]` matrix. -/
theorem unstack_apply {α : Type} (w : S1x64x64.Idx → α) (h : S1x64x64.ShapeCasts S64x64) (k o : Fin 64) :
    shapeCast S64x64 w h (ix2 k o) = w (ix3 0 k o) :=
  shapeCast_apply w h _ _ (by
    rw [Shape.rowMajor_val_three, Shape.rowMajor_val_two]
    show ((0 : Fin 1).val * 64 + k.val) * 64 + o.val = k.val * 64 + o.val
    simp)

/-- A `[1, 64]` bias row repeated down 8192 rows. -/
theorem biasRows_apply {α : Type} (b : S1x64.Idx → α) (h : S1x64.Broadcasts S8192x64) (p : Fin 8192) (o : Fin 64) :
    broadcastTo S8192x64 b h (ix2 p o) = b (ix2 0 o) :=
  broadcastTo_apply b h _ _ (fun a => match a with
    | ⟨0, _⟩ => by show (0 : Nat) = if (1 : Nat) = 1 then 0 else _; rw [if_pos rfl]
    | ⟨1, _⟩ => by show o.val = if (64 : Nat) = 1 then 0 else o.val; rw [if_neg (by decide)])

/-- The sum over a tree's 1024 nodes: a reduction over the middle axis of `[8, 1024, 64]` from the zero word. -/
theorem nodeSum_apply (Z : FVec Ideal S8x1024x64 .f32) (h : S8x1024x64.Reduces [1] S8x64) (hφ : FKind.Formats .f32)
    (hacc : (0x00000000#32 : BitVec 32) = 0x00000000#32) (r : Fin 8) (o : Fin 64) :
    multiReduction .add [1] S8x64 Z 0x00000000#32 h hφ hacc (ix2 r o) = ∑ nn : Fin 1024, Z (ix3 r nn o) := by
  refine (Ideal.multiReduction_add_single Z 0x00000000#32 h hφ hacc (ix2 r o)).trans ?_
  refine Finset.sum_congr rfl fun nn _ => congrArg Z (funext fun a => Fin.ext ?_)
  match a with
  | ⟨0, _⟩ => rfl
  | ⟨1, _⟩ => rfl
  | ⟨2, _⟩ => rfl

end Cert.KernelIdeal.Body

end
-- ==== Proof.Spec.lean ====
/-
  What both programs compute, as one function of the six argument arrays on the extended reals.

  A tree is a bag of 8192 nodes, each a row of 64 features. Every node goes, by itself, through
    * an embedding, the affine map `h₀ i = ∑_f x f · W_emb i f + b_emb i`;
    * two cells in a row. A cell without children has no forget term and its recurrent part is only a bias, so
      layer `l` turns a hidden row `h` into `σ(z₁) · tanh (σ(z₀) · tanh z₂)`, where the three pre-activations are
      the affine maps `z_g o = ∑_i h i · Wx l g o i + (bW l g o + bU l g o)` (`g = 0, 1, 2`: input gate, output gate,
      candidate) and `σ x = 1 / (1 + e⁻ˣ)`;
  and the result, for tree `B` and hidden unit `o`, is the mean over the tree's nodes of the last hidden row's entry
  `o`: the sum over the 8192 nodes times 2⁻¹³.

  Nothing here needs an argument to be finite: sums are taken in the commutative monoid of the extended reals, and
  the transcendentals are total there.
-/
import Idealize.ShloMosaic.PureOps.Ideal
import Idealize.ShloMosaic.Lib.ValueIdx

noncomputable section

open scoped BigOperators

namespace Cert.TreeNet

open Idealize.ShloMosaic Idealize.ShloMosaic.ValueIdx

/-- The affine map of a 64-entry row: `o ↦ ∑_i h i · W o i + b o` (the weight's FIRST coordinate is the output). -/
def affine (W : Fin 64 → Fin 64 → EReal) (b h : Fin 64 → EReal) (o : Fin 64) : EReal :=
  (∑ i : Fin 64, h i * W o i) + b o

/-- One childless cell: the output gate times `tanh` of the cell state, the cell state being the input gate times
    the candidate. -/
def cell (Wi Wo Wc : Fin 64 → Fin 64 → EReal) (bi bo bc h : Fin 64 → EReal) (o : Fin 64) : EReal :=
  Ideal.logistic (affine Wo bo h o) * Ideal.tanh (Ideal.logistic (affine Wi bi h o) * Ideal.tanh (affine Wc bc h o))

/-- The argument arrays' shapes. -/
abbrev Feat : Shape := ⟨3, ![64, 8192, 64]⟩
abbrev Sq : Shape := ⟨2, ![64, 64]⟩
abbrev Row : Shape := ⟨1, ![64]⟩
abbrev Gates : Shape := ⟨4, ![2, 3, 64, 64]⟩
abbrev Biases : Shape := ⟨3, ![2, 3, 64]⟩

/-- Node `n` of tree `B`, embedded. -/
def embedded (x : Feat.Idx → EReal) (We : Sq.Idx → EReal) (be : Row.Idx → EReal) (B : Fin 64) (n : Fin 8192) :
    Fin 64 → EReal :=
  affine (fun i f => We (ix2 i f)) (fun i => be (ix1 i)) (fun f => x (ix3 B n f))

/-- Layer `l`'s cell: gate `g`'s weight is `Wx l g`, its bias the sum of the two bias arrays' rows. -/
def layer (Wx : Gates.Idx → EReal) (bW bU : Biases.Idx → EReal) (l : Fin 2) (h : Fin 64 → EReal) : Fin 64 → EReal :=
  cell (fun o i => Wx (ix4 l 0 o i)) (fun o i => Wx (ix4 l 1 o i)) (fun o i => Wx (ix4 l 2 o i))
    (fun o => bW (ix3 l 0 o) + bU (ix3 l 0 o)) (fun o => bW (ix3 l 1 o) + bU (ix3 l 1 o))
    (fun o => bW (ix3 l 2 o) + bU (ix3 l 2 o)) h

/-- Node `n` of tree `B` after both layers. -/
def nodeOut (x : Feat.Idx → EReal) (We : Sq.Idx → EReal) (be : Row.Idx → EReal) (Wx : Gates.Idx → EReal)
    (bW bU : Biases.Idx → EReal) (B : Fin 64) (n : Fin 8192) : Fin 64 → EReal :=
  layer Wx bW bU 1 (layer Wx bW bU 0 (embedded x We be B n))

/-- THE RESULT: entry `(B, o)` is the mean over tree `B`'s nodes of the last hidden row's entry `o`. -/
def treeMean (x : Feat.Idx → EReal) (We : Sq.Idx → EReal) (be : Row.Idx → EReal) (Wx : Gates.Idx → EReal)
    (bW bU : Biases.Idx → EReal) : Sq.Idx → EReal :=
  fun j => (∑ n : Fin 8192, nodeOut x We be Wx bW bU (j 0) n (j 1)) * Ideal.ofBits .f32 0x39000000#32

end Cert.TreeNet

end
-- ==== Proof.Layer.lean ====
/-
  The kernel body's arithmetic, payload by payload, read at a row of the flattened block and a hidden unit, as the
  functions of the specification: the embedding is an affine map of the node's feature row, each gate's pre-activation an
  affine map of the hidden row before it, a layer's output the cell of its three gates, and what a grid point adds to
  the running sum is, for tree `r` of the block and unit `o`, the sum over the tile's 1024 nodes of the second cell's
  output. The weight of gate `g` reaches the body transposed (input coordinate first), which is why the affine maps
  below read it with its coordinates exchanged; changes of float format are the identity on the extended reals.
-/
import proofs.«160879_j67611375173685_2_alg».proof.Proof.Dense
import proofs.«160879_j67611375173685_2_alg».proof.Proof.Spec
import proofs.«160879_j67611375173685_2_alg».proof.Proof.Gen.KernelIdeal.Skeleton

noncomputable section

open scoped BigOperators

namespace Cert.KernelIdeal.Body

open Cert.KernelIdeal Cert.KernelIdeal.Gen Cert.KernelIdeal.Facts₀ Idealize.ShloMosaic Idealize.ShloMosaic.ValueIdx
open Cert.TreeNet (affine cell)

/-- The body's one matrix product layout: `[8192, 64] · [64, 64]`, contracting the first operand's columns with the
    second's rows. -/
abbrev prod := dot_S8192x64_S64x64_S8192x64_1_0_0_1_n_n

theorem prod_rank : prod.contr.rank = 1 := rfl
theorem prod_size : prod.contr.size ⟨0, by decide⟩ = 64 := rfl

theorem prod_l0 (j : S8192x64.Idx) (q : prod.contr.Idx) : (prod.lhsIdx j q ⟨0, Nat.zero_lt_two⟩).val = (j ⟨0, Nat.zero_lt_two⟩).val := by
  unfold DotDims.lhsIdx
  rw [dif_neg (show ¬(⟨0, Nat.zero_lt_two⟩ : Fin S8192x64.rank) ∈ prod.lhsBatch by decide), dif_pos (show (⟨0, Nat.zero_lt_two⟩ : Fin S8192x64.rank) ∈ prod.lhsNonContracting by decide)]
  rfl
theorem prod_l1 (j : S8192x64.Idx) (q : prod.contr.Idx) : (prod.lhsIdx j q ⟨1, Nat.one_lt_two⟩).val = (q ⟨0, by decide⟩).val :=
  prod.lhsIdx_val_of_single rfl j q
theorem prod_r0 (j : S8192x64.Idx) (q : prod.contr.Idx) : (prod.rhsIdx j q ⟨0, Nat.zero_lt_two⟩).val = (q ⟨0, by decide⟩).val :=
  prod.rhsIdx_val_of_single rfl j q
theorem prod_r1 (j : S8192x64.Idx) (q : prod.contr.Idx) : (prod.rhsIdx j q ⟨1, Nat.one_lt_two⟩).val = (j ⟨1, Nat.one_lt_two⟩).val := by
  unfold DotDims.rhsIdx
  rw [dif_neg (show ¬(⟨1, Nat.one_lt_two⟩ : Fin S64x64.rank) ∈ prod.rhsBatch by decide), dif_pos (show (⟨1, Nat.one_lt_two⟩ : Fin S64x64.rank) ∈ prod.rhsNonContracting by decide)]
  rfl

/-- The product into the zero matrix at `(p, o)`: the sum over `k` of `A (p, k) · W (k, o)`. -/
theorem product_apply {φ₁ φ₂ : FTy} (A : FVec Ideal S8192x64 φ₁) (W : FVec Ideal S64x64 φ₂) (p : Fin 8192) (o : Fin 64) :
    matmul prod none A W (constant S8192x64 .f32 0x00000000#32) (ix2 p o) = ∑ k : Fin 64, A (ix2 p k) * W (ix2 k o) :=
  Cert.Lib.PlainMatmul.matmul_zero_apply prod prod_rank prod_size prod_l0 prod_l1 prod_r0 prod_r1 none A W p o

/-- A dense layer at `(p, o)`: the product with a weight out of its stack plus the bias row, as the affine map of row
    `p` — the weight read input coordinate first. -/
theorem dense_apply {φ : FTy} (A : FVec Ideal S8192x64 φ) (w : Vec Ideal S1x64x64 .bf16) (b : Vec Ideal S1x64 .f32)
    (h1 : S1x64x64.ShapeCasts S64x64) (h2 : S1x64.ShapeCasts S64) (h3 : S64.ShapeCasts S1x64)
    (h4 : S1x64.Broadcasts S8192x64) (p : Fin 8192) (o : Fin 64) :
    addf (matmul prod none A (shapeCast S64x64 w h1 : FVec Ideal S64x64 .bf16) (constant S8192x64 .f32 0x00000000#32))
        (broadcastTo S8192x64 (shapeCast S1x64 (shapeCast S64 b h2 : FVec Ideal S64 .f32) h3 : FVec Ideal S1x64 .f32) h4) (ix2 p o)
      = affine (fun o i => w (ix3 0 i o)) (fun o => b (ix2 0 o)) (fun i => A (ix2 p i)) o := by
  rw [addf_apply, product_apply, biasRows_apply, shapeCast_shapeCast]
  simp only [unstack_apply]
  rfl

/-! ## The payloads -/

section payloads

variable (x0 : Vec Ideal S8x1024x64 .f32) (x1 : Vec Ideal S64x64 .bf16) (x2 : Vec Ideal S1x64 .f32)

/-- The embedded hidden row of node `nn` of the block's tree `r`: the affine map of the node's feature row, the
    embedding weight reaching the body transposed. -/
theorem embed_apply (r : Fin 8) (nn : Fin 1024) (i : Fin 64) :
    k0_pay4 x0 x1 x2 (ix2 (rowIx r nn) i)
      = affine (fun i f => x1 (ix2 f i)) (fun i => x2 (ix2 0 i)) (fun f => x0 (ix3 r nn f)) i := by
  unfold k0_pay4
  show addf (F := Ideal) (matmul (F := Ideal) prod none _ _ _) (broadcastTo S8192x64 _ _) (ix2 (rowIx r nn) i) = _
  rw [addf_apply, product_apply, biasRows_apply, shapeCast_self, shapeCast_self]
  simp only [flatten_apply, truncf_apply]
  rfl

/-- A weight piece as the specification reads a weight: output coordinate first. -/
abbrev Wof (w : Vec Ideal S1x64x64 .bf16) : Fin 64 → Fin 64 → EReal := fun o i => w (ix3 0 i o)
/-- A bias piece as a row of 64 extended reals. -/
abbrev bof (b : Vec Ideal S1x64 .f32) : Fin 64 → EReal := fun o => b (ix2 0 o)

/-- First layer, input gate's pre-activation at row `p`: the affine map of the embedded row. -/
theorem gateI0_apply (w : Vec Ideal S1x64x64 .bf16) (b : Vec Ideal S1x64 .f32) (p : Fin 8192) (o : Fin 64) :
    k0_pay5 x0 x1 x2 w b (ix2 p o) = affine (Wof w) (bof b) (fun i => k0_pay4 x0 x1 x2 (ix2 p i)) o := by
  unfold k0_pay5
  exact dense_apply (k0_pay4 x0 x1 x2) w b _ _ _ _ p o

/-- First layer, output gate's pre-activation. -/
theorem gateO0_apply (w : Vec Ideal S1x64x64 .bf16) (b : Vec Ideal S1x64 .f32) (p : Fin 8192) (o : Fin 64) :
    k0_pay6 x0 x1 x2 w b (ix2 p o) = affine (Wof w) (bof b) (fun i => k0_pay4 x0 x1 x2 (ix2 p i)) o := by
  unfold k0_pay6
  exact dense_apply (k0_pay4 x0 x1 x2) w b _ _ _ _ p o

variable (v13 : FVec Ideal S8192x64 .bf16) (v21 v29 : FVec Ideal S8192x64 .f32)

/-- The first cell's output at row `p`, from the hidden row `v13` and the two gates' pre-activations `v21` (input)
    and `v29` (output): the candidate's pre-activation is the third affine map. -/
theorem hidden1_apply (wc : Vec Ideal S1x64x64 .bf16) (bc : Vec Ideal S1x64 .f32) (p : Fin 8192) (o : Fin 64) :
    k0_pay8 v13 v21 v29 (k0_pay7 wc) bc (ix2 p o)
      = Ideal.logistic (v29 (ix2 p o)) * Ideal.tanh (Ideal.logistic (v21 (ix2 p o))
          * Ideal.tanh (affine (Wof wc) (bof bc) (fun i => v13 (ix2 p i)) o)) := by
  unfold k0_pay8 k0_pay7
  show Ideal.logistic (v29 (ix2 p o)) * Ideal.tanh (Ideal.logistic (v21 (ix2 p o))
    * Ideal.tanh (addf (F := Ideal) (matmul (F := Ideal) prod none v13 _ _) (broadcastTo S8192x64 _ _) (ix2 p o))) = _
  rw [dense_apply]

variable (v31 : FVec Ideal S64x64 .bf16) (v33 : Vec Ideal S1x64 .f32)

/-- Second layer, candidate's pre-activation: the affine map of the first cell's output row. -/
theorem gateC1_apply (w : Vec Ideal S1x64x64 .bf16) (b : Vec Ideal S1x64 .f32) (p : Fin 8192) (o : Fin 64) :
    k0_pay9 v13 v21 v29 v31 v33 w b (ix2 p o)
      = affine (Wof w) (bof b) (fun i => k0_pay8 v13 v21 v29 v31 v33 (ix2 p i)) o := by
  unfold k0_pay9
  exact dense_apply (k0_pay8 v13 v21 v29 v31 v33) w b _ _ _ _ p o

/-- Second layer, input gate. -/
theorem gateI1_apply (w : Vec Ideal S1x64x64 .bf16) (b : Vec Ideal S1x64 .f32) (p : Fin 8192) (o : Fin 64) :
    k0_pay10 v13 v21 v29 v31 v33 w b (ix2 p o)
      = Ideal.logistic (affine (Wof w) (bof b) (fun i => k0_pay8 v13 v21 v29 v31 v33 (ix2 p i)) o) := by
  unfold k0_pay10
  exact congrArg Ideal.logistic (dense_apply (k0_pay8 v13 v21 v29 v31 v33) w b _ _ _ _ p o)

/-- Second layer, output gate. -/
theorem gateO1_apply (w : Vec Ideal S1x64x64 .bf16) (b : Vec Ideal S1x64 .f32) (p : Fin 8192) (o : Fin 64) :
    k0_pay11 v13 v21 v29 v31 v33 w b (ix2 p o)
      = Ideal.logistic (affine (Wof w) (bof b) (fun i => k0_pay8 v13 v21 v29 v31 v33 (ix2 p i)) o) := by
  unfold k0_pay11
  exact congrArg Ideal.logistic (dense_apply (k0_pay8 v13 v21 v29 v31 v33) w b _ _ _ _ p o)

/-- What a grid point leaves in the running sum at `(r, o)`: what was there plus the sum, over the tile's 1024 nodes of
    tree `r`, of the second cell's output — `v68` the candidate's pre-activation, `v69` and `v70` the two gates. -/
theorem accumulate_apply (v68 v69 v70 : FVec Ideal S8192x64 .f32) (acc : Vec Ideal S8x64 .f32) (r : Fin 8) (o : Fin 64) :
    k0_pay1 v68 v69 v70 acc (ix2 r o)
      = acc (ix2 r o) + ∑ nn : Fin 1024, v70 (ix2 (rowIx r nn) o)
          * Ideal.tanh (v69 (ix2 (rowIx r nn) o) * Ideal.tanh (v68 (ix2 (rowIx r nn) o))) := by
  unfold k0_pay1
  show shapeCast S8x64 (addf (F := Ideal) acc (multiReduction (F := Ideal) .add [1] S8x64 _ _ _ _ _)) _ (ix2 r o) = _
  rw [shapeCast_self, addf_apply, nodeSum_apply]
  simp only [unflatten_apply]
  rfl

end payloads

end Cert.KernelIdeal.Body

end
-- ==== Proof.Pieces.lean ====
/-
  What one grid point does to the running sum, read off the body's run.

  The body loads its block of node features whole, the embedding's weight and bias whole, and of each stacked gate
  weight and bias the piece of layer 0 and the piece of layer 1; from these it computes the block's second hidden
  state, sums it over the tile's nodes, and stores "what the scratch held plus that sum" back into the scratch —
  `step` below. The three control cases differ only in what the scratch held: at the first tile of a sweep the body
  has just stored zeros there; at the others it holds what the point before left. At the last tile the body also
  stores the scratch, scaled, into the output block. The lemmas here read those facts off the run's recorded stores;
  they hold for any float instance.
-/
import proofs.«160879_j67611375173685_2_alg».proof.Proof.Gen.KernelIdeal.Frame
import Idealize.ShloMosaic.Lib.Pipeline.Value
import Idealize.ShloMosaic.Lib.Tactic

set_option maxRecDepth 16384

noncomputable section

namespace Cert.KernelIdeal.Body

open Cert.KernelIdeal Cert.KernelIdeal.Gen Cert.KernelIdeal.Facts₀
open Idealize.ShloMosaic Idealize.ShloMosaic.TcCoe Idealize.SL.Sem Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Layer 0's and layer 1's `[1, 64, 64]` piece of a stack of two gate weights, -/
abbrev weight0 (x : Vec F S2x64x64 .bf16) : Vec F S1x64x64 .bf16 :=
  View.ld x (Rect.unit (s := S2x64x64) ![0, 0, 0] S1x64x64.size Facts₀.inb_S2x64x64_S1x64x64_0_0_0)
abbrev weight1 (x : Vec F S2x64x64 .bf16) : Vec F S1x64x64 .bf16 :=
  View.ld x (Rect.unit (s := S2x64x64) ![1, 0, 0] S1x64x64.size Facts₀.inb_S2x64x64_S1x64x64_1_0_0)
/-- and the `[1, 64]` piece of a stack of two bias rows. -/
abbrev bias0 (x : Vec F S2x64 .f32) : Vec F S1x64 .f32 :=
  View.ld x (Rect.unit (s := S2x64) ![0, 0] S1x64.size Facts₀.inb_S2x64_S1x64_0_0)
abbrev bias1 (x : Vec F S2x64 .f32) : Vec F S1x64 .f32 :=
  View.ld x (Rect.unit (s := S2x64) ![1, 0] S1x64.size Facts₀.inb_S2x64_S1x64_1_0)

/-- ONE POINT'S STEP over the loaded pieces: the embedding, layer 0's three gates and cell, layer 1's three gates, and
    the scratch `acc` plus the tile's node sum of layer 1's cell. -/
def step (x0 : Vec F S8x1024x64 .f32) (x1 : Vec F S64x64 .bf16) (x2 : Vec F S1x64 .f32)
    (wi0 wo0 wc0 wi1 wo1 wc1 : Vec F S1x64x64 .bf16) (bi0 bo0 bc0 bi1 bo1 bc1 : Vec F S1x64 .f32)
    (acc : Vec F S8x64 .f32) : FVec F S8x64 .f32 :=
  k0_pay1
    (k0_pay9 (k0_pay4 x0 x1 x2) (k0_pay5 x0 x1 x2 wi0 bi0) (k0_pay6 x0 x1 x2 wo0 bo0) (k0_pay7 wc0) bc0 wc1 bc1)
    (k0_pay10 (k0_pay4 x0 x1 x2) (k0_pay5 x0 x1 x2 wi0 bi0) (k0_pay6 x0 x1 x2 wo0 bo0) (k0_pay7 wc0) bc0 wi1 bi1)
    (k0_pay11 (k0_pay4 x0 x1 x2) (k0_pay5 x0 x1 x2 wi0 bi0) (k0_pay6 x0 x1 x2 wo0 bo0) (k0_pay7 wc0) bc0 wo1 bo1)
    acc

/-- The step over the nine input blocks: windows 3, 4, 5 are the input gate's, the output gate's and the candidate's
    weight stacks, windows 6, 7, 8 their bias stacks. -/
def stepOf (x0 : Vec F S8x1024x64 .f32) (x1 : Vec F S64x64 .bf16) (x2 : Vec F S1x64 .f32) (x3 : Vec F S2x64x64 .bf16) (x4 : Vec F S2x64x64 .bf16) (x5 : Vec F S2x64x64 .bf16) (x6 : Vec F S2x64 .f32) (x7 : Vec F S2x64 .f32) (x8 : Vec F S2x64 .f32) (acc : Vec F S8x64 .f32) : FVec F S8x64 .f32 :=
  step x0 x1 x2 (weight0 x3) (weight0 x4) (weight0 x5) (weight1 x3) (weight1 x4) (weight1 x5)
    (bias0 x6) (bias0 x7) (bias0 x8) (bias1 x6) (bias1 x7) (bias1 x8) acc

/-- Away from a sweep's first and last tile the scratch ends at the step over what the point before left. -/
theorem scratch_B (c : Dev nD) (i : grid0.Coords) (arg2 : Memref sig .tc .vmem S8x1024x64 .f32) (harg2 : arg2.IsWhole) (arg3 : Memref sig .tc .vmem S64x64 .bf16) (harg3 : arg3.IsWhole) (arg4 : Memref sig .tc .vmem S1x64 .f32) (harg4 : arg4.IsWhole) (arg5 : Memref sig .tc .vmem S2x64x64 .bf16) (harg5 : arg5.IsWhole) (arg6 : Memref sig .tc .vmem S2x64x64 .bf16) (harg6 : arg6.IsWhole) (arg7 : Memref sig .tc .vmem S2x64x64 .bf16) (harg7 : arg7.IsWhole) (arg8 : Memref sig .tc .vmem S2x64 .f32) (harg8 : arg8.IsWhole) (arg9 : Memref sig .tc .vmem S2x64 .f32) (harg9 : arg9.IsWhole) (arg10 : Memref sig .tc .vmem S2x64 .f32) (harg10 : arg10.IsWhole) (arg11 : Memref sig .tc .vmem S8x64 .f32) (harg11 : arg11.IsWhole) (arg12 : Memref sig .tc .vmem S8x64 .f32) (harg12 : arg12.IsWhole) (hc0 : ¬cond0_0 i) (hc1 : ¬cond0_1 i) (x0 : Vec F S8x1024x64 .f32) (x1 : Vec F S64x64 .bf16) (x2 : Vec F S1x64 .f32) (x3 : Vec F S2x64x64 .bf16) (x4 : Vec F S2x64x64 .bf16) (x5 : Vec F S2x64x64 .bf16) (x6 : Vec F S2x64 .f32) (x7 : Vec F S2x64 .f32) (x8 : Vec F S2x64 .f32) (xs0 : Vec F S8x64 .f32) :
    sout0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 = stepOf x0 x1 x2 x3 x4 x5 x6 x7 x8 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg12.read_unread, View.ld_unit_zero (S := S8x64) hz2, View.ld_unit_zero (S := S8x1024x64) hz3, View.ld_unit_zero (S := S64x64) hz2, View.ld_unit_zero (S := S1x64) hz2]
  rfl

/-- At a sweep's last tile likewise, -/
theorem scratch_C (c : Dev nD) (i : grid0.Coords) (arg2 : Memref sig .tc .vmem S8x1024x64 .f32) (harg2 : arg2.IsWhole) (arg3 : Memref sig .tc .vmem S64x64 .bf16) (harg3 : arg3.IsWhole) (arg4 : Memref sig .tc .vmem S1x64 .f32) (harg4 : arg4.IsWhole) (arg5 : Memref sig .tc .vmem S2x64x64 .bf16) (harg5 : arg5.IsWhole) (arg6 : Memref sig .tc .vmem S2x64x64 .bf16) (harg6 : arg6.IsWhole) (arg7 : Memref sig .tc .vmem S2x64x64 .bf16) (harg7 : arg7.IsWhole) (arg8 : Memref sig .tc .vmem S2x64 .f32) (harg8 : arg8.IsWhole) (arg9 : Memref sig .tc .vmem S2x64 .f32) (harg9 : arg9.IsWhole) (arg10 : Memref sig .tc .vmem S2x64 .f32) (harg10 : arg10.IsWhole) (arg11 : Memref sig .tc .vmem S8x64 .f32) (harg11 : arg11.IsWhole) (arg12 : Memref sig .tc .vmem S8x64 .f32) (harg12 : arg12.IsWhole) (hc0 : ¬cond0_0 i) (hc1 : cond0_1 i) (x0 : Vec F S8x1024x64 .f32) (x1 : Vec F S64x64 .bf16) (x2 : Vec F S1x64 .f32) (x3 : Vec F S2x64x64 .bf16) (x4 : Vec F S2x64x64 .bf16) (x5 : Vec F S2x64x64 .bf16) (x6 : Vec F S2x64 .f32) (x7 : Vec F S2x64 .f32) (x8 : Vec F S2x64 .f32) (xs0 : Vec F S8x64 .f32) :
    sout0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 = stepOf x0 x1 x2 x3 x4 x5 x6 x7 x8 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg12.read_unread, View.ld_unit_zero (S := S8x64) hz2, View.ld_unit_zero (S := S8x1024x64) hz3, View.ld_unit_zero (S := S64x64) hz2, View.ld_unit_zero (S := S1x64) hz2]
  rfl

/-- and there the output block is stored: the scratch just written, read back, times the word of `2⁻¹³`. -/
theorem output_C (c : Dev nD) (i : grid0.Coords) (arg2 : Memref sig .tc .vmem S8x1024x64 .f32) (harg2 : arg2.IsWhole) (arg3 : Memref sig .tc .vmem S64x64 .bf16) (harg3 : arg3.IsWhole) (arg4 : Memref sig .tc .vmem S1x64 .f32) (harg4 : arg4.IsWhole) (arg5 : Memref sig .tc .vmem S2x64x64 .bf16) (harg5 : arg5.IsWhole) (arg6 : Memref sig .tc .vmem S2x64x64 .bf16) (harg6 : arg6.IsWhole) (arg7 : Memref sig .tc .vmem S2x64x64 .bf16) (harg7 : arg7.IsWhole) (arg8 : Memref sig .tc .vmem S2x64 .f32) (harg8 : arg8.IsWhole) (arg9 : Memref sig .tc .vmem S2x64 .f32) (harg9 : arg9.IsWhole) (arg10 : Memref sig .tc .vmem S2x64 .f32) (harg10 : arg10.IsWhole) (arg11 : Memref sig .tc .vmem S8x64 .f32) (harg11 : arg11.IsWhole) (arg12 : Memref sig .tc .vmem S8x64 .f32) (harg12 : arg12.IsWhole) (hc0 : ¬cond0_0 i) (hc1 : cond0_1 i) (x0 : Vec F S8x1024x64 .f32) (x1 : Vec F S64x64 .bf16) (x2 : Vec F S1x64 .f32) (x3 : Vec F S2x64x64 .bf16) (x4 : Vec F S2x64x64 .bf16) (x5 : Vec F S2x64x64 .bf16) (x6 : Vec F S2x64 .f32) (x7 : Vec F S2x64 .f32) (x8 : Vec F S2x64 .f32) (xs0 : Vec F S8x64 .f32) :
    out0_C_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 = k0_pay2 (stepOf x0 x1 x2 x3 x4 x5 x6 x7 x8 xs0) := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0)]
  unfold kernelRun0_C
  dsimp only
  sl_unfold_words
  rw [View.canon_unit_zero hz2, View.readCov_unit_zero (S := S8x64) _ hz2]
  simp only [View.readAt_eq_ld, harg2.read_unread, harg3.read_unread, harg4.read_unread, harg5.read_unread, harg6.read_unread, harg7.read_unread, harg8.read_unread, harg9.read_unread, harg10.read_unread, harg12.read_unread, View.ld_unit_zero (S := S8x64) hz2, View.ld_unit_zero (S := S8x1024x64) hz3, View.ld_unit_zero (S := S64x64) hz2, View.ld_unit_zero (S := S1x64) hz2]
  rfl

/-- At a sweep's first tile the body first stores zeros into the scratch, and the step is over those zeros. -/
theorem scratch_A (c : Dev nD) (i : grid0.Coords) (arg2 : Memref sig .tc .vmem S8x1024x64 .f32) (harg2 : arg2.IsWhole) (arg3 : Memref sig .tc .vmem S64x64 .bf16) (harg3 : arg3.IsWhole) (arg4 : Memref sig .tc .vmem S1x64 .f32) (harg4 : arg4.IsWhole) (arg5 : Memref sig .tc .vmem S2x64x64 .bf16) (harg5 : arg5.IsWhole) (arg6 : Memref sig .tc .vmem S2x64x64 .bf16) (harg6 : arg6.IsWhole) (arg7 : Memref sig .tc .vmem S2x64x64 .bf16) (harg7 : arg7.IsWhole) (arg8 : Memref sig .tc .vmem S2x64 .f32) (harg8 : arg8.IsWhole) (arg9 : Memref sig .tc .vmem S2x64 .f32) (harg9 : arg9.IsWhole) (arg10 : Memref sig .tc .vmem S2x64 .f32) (harg10 : arg10.IsWhole) (arg11 : Memref sig .tc .vmem S8x64 .f32) (harg11 : arg11.IsWhole) (arg12 : Memref sig .tc .vmem S8x64 .f32) (harg12 : arg12.IsWhole) (hc0 : cond0_0 i) (hc1 : ¬cond0_1 i) (x0 : Vec F S8x1024x64 .f32) (x1 : Vec F S64x64 .bf16) (x2 : Vec F S1x64 .f32) (x3 : Vec F S2x64x64 .bf16) (x4 : Vec F S2x64x64 .bf16) (x5 : Vec F S2x64x64 .bf16) (x6 : Vec F S2x64 .f32) (x7 : Vec F S2x64 .f32) (x8 : Vec F S2x64 .f32) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 = stepOf x0 x1 x2 x3 x4 x5 x6 x7 x8 (k0_pay3 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8)]
  unfold kernelRun0_A
  dsimp only
  sl_unfold_words
  rw [View.canon_cons_unit_zero (S := S8x64) hz2, View.readCov_unit_zero (S := S8x64) _ hz2]
  simp only [View.readAt_eq_ld, harg2.read_unread, harg3.read_unread, harg4.read_unread, harg5.read_unread, harg6.read_unread, harg7.read_unread, harg8.read_unread, harg9.read_unread, harg10.read_unread, harg12.read_unread, View.ld_unit_zero (S := S8x64) hz2, View.ld_unit_zero (S := S8x1024x64) hz3, View.ld_unit_zero (S := S64x64) hz2, View.ld_unit_zero (S := S1x64) hz2]
  rfl

end Cert.KernelIdeal.Body

end
-- ==== Proof.Literals.lean ====
/-
  The float literals the two programs spell, read as the extended reals they denote, and the one law that joins the
  two spellings of the mean over the 8192 nodes of a tree: the kernel multiplies the node sum by the word of
  2⁻¹³, the reference divides it by the word of 8192. Since 2⁻¹³ is exactly 1/8192 — a power of two, so the
  binary pattern loses nothing — the two are one function on every extended real, the infinities included:
  dividing by a nonzero real is multiplying by its reciprocal there too.
-/
import Idealize.ShloMosaic.PureOps.Ideal

noncomputable section

namespace Cert.Literals

open Idealize.ShloMosaic

/-- The word `0x3F800000` (`1.0`), the numerator and the summand of the reference's spelled-out sigmoid, is `1`. -/
theorem one_word : Ideal.ofBits .f32 0x3F800000#32 = 1 := by
  simp [Ideal.ofBits, Ideal.ieee, -EReal.coe_mul]; norm_num

/-- The word `0x46000000` (`8192.0`), the reference's divisor, is the real `8192 = 2¹³`. -/
theorem nodes_word : Ideal.ofBits .f32 0x46000000#32 = ((8192 : ℝ) : EReal) := by
  simp [Ideal.ofBits, Ideal.ieee, -EReal.coe_mul]; norm_num

/-- The word `0x39000000` (`1.22070313E-4`), the kernel's factor, is exactly the real `1/8192 = 2⁻¹³`. -/
theorem inv_nodes_word : Ideal.ofBits .f32 0x39000000#32 = ((1 / 8192 : ℝ) : EReal) := by
  simp [Ideal.ofBits, Ideal.ieee, -EReal.coe_mul]; norm_num

/-- The mean's two spellings agree on every extended real `s`: `s / 8192 = s · 2⁻¹³`. -/
theorem div_nodes_eq_mul (s : EReal) :
    Ideal.div s (Ideal.ofBits .f32 0x46000000#32) = s * Ideal.ofBits .f32 0x39000000#32 := by
  rw [nodes_word, inv_nodes_word]
  exact Ideal.div_coe (by norm_num : (8192 : ℝ) ≠ 0) s

end Cert.Literals

end
-- ==== Proof.StepValue.lean ====
/-
  One grid point's step on the extended reals, at tree `r` of the block and hidden unit `o`, as a function of the nine
  input blocks: what the scratch held there plus the sum over the tile's 1024 nodes of the node's output — the
  embedding's affine map of the node's feature row, then layer 0's cell, then layer 1's cell. The gate weights are
  read off their stacks at the layer's index with the input coordinate first (they reach the body transposed), the
  biases at the layer's row.
-/
import proofs.«160879_j67611375173685_2_alg».proof.Proof.Layer
import proofs.«160879_j67611375173685_2_alg».proof.Proof.Pieces
import proofs.«160879_j67611375173685_2_alg».proof.Proof.Literals

noncomputable section

open scoped BigOperators

namespace Cert.KernelIdeal.Body

open Cert.KernelIdeal Cert.KernelIdeal.Gen Idealize.ShloMosaic Idealize.ShloMosaic.ValueIdx
open Cert.TreeNet (affine cell)

/-- A layer's piece of a weight stack, and of a bias stack, read at coordinates. -/
theorem weight0_apply (x : Vec Ideal S2x64x64 .bf16) (k o : Fin 64) : weight0 x (ix3 0 k o) = x (ix3 0 k o) :=
  congrArg x (funext fun a => Fin.ext (by
    match a with
    | ⟨0, _⟩ => rfl
    | ⟨1, _⟩ => show 0 + 1 * k.val = k.val; omega
    | ⟨2, _⟩ => show 0 + 1 * o.val = o.val; omega))
theorem weight1_apply (x : Vec Ideal S2x64x64 .bf16) (k o : Fin 64) : weight1 x (ix3 0 k o) = x (ix3 1 k o) :=
  congrArg x (funext fun a => Fin.ext (by
    match a with
    | ⟨0, _⟩ => rfl
    | ⟨1, _⟩ => show 0 + 1 * k.val = k.val; omega
    | ⟨2, _⟩ => show 0 + 1 * o.val = o.val; omega))
theorem bias0_apply (x : Vec Ideal S2x64 .f32) (o : Fin 64) : bias0 x (ix2 0 o) = x (ix2 0 o) :=
  congrArg x (funext fun a => Fin.ext (by
    match a with
    | ⟨0, _⟩ => rfl
    | ⟨1, _⟩ => show 0 + 1 * o.val = o.val; omega))
theorem bias1_apply (x : Vec Ideal S2x64 .f32) (o : Fin 64) : bias1 x (ix2 0 o) = x (ix2 1 o) :=
  congrArg x (funext fun a => Fin.ext (by
    match a with
    | ⟨0, _⟩ => rfl
    | ⟨1, _⟩ => show 0 + 1 * o.val = o.val; omega))

/-- The step over loaded pieces: the scratch plus the tile's node sum of the two cells over the embedding. -/
theorem step_apply (x0 : Vec Ideal S8x1024x64 .f32) (x1 : Vec Ideal S64x64 .bf16) (x2 : Vec Ideal S1x64 .f32)
    (wi0 wo0 wc0 wi1 wo1 wc1 : Vec Ideal S1x64x64 .bf16) (bi0 bo0 bc0 bi1 bo1 bc1 : Vec Ideal S1x64 .f32)
    (acc : Vec Ideal S8x64 .f32) (r : Fin 8) (o : Fin 64) :
    step (F := Ideal) x0 x1 x2 wi0 wo0 wc0 wi1 wo1 wc1 bi0 bo0 bc0 bi1 bo1 bc1 acc (ix2 r o)
      = acc (ix2 r o) + ∑ nn : Fin 1024,
          cell (Wof wi1) (Wof wo1) (Wof wc1) (bof bi1) (bof bo1) (bof bc1)
            (cell (Wof wi0) (Wof wo0) (Wof wc0) (bof bi0) (bof bo0) (bof bc0)
              (affine (fun i f => x1 (ix2 f i)) (fun i => x2 (ix2 0 i)) (fun f => x0 (ix3 r nn f)))) o := by
  unfold step
  refine (accumulate_apply _ _ _ acc r o).trans ?_
  refine congrArg (acc (ix2 r o) + ·) (Finset.sum_congr rfl fun nn _ => ?_)
  have h0 : (fun i => k0_pay4 x0 x1 x2 (ix2 (rowIx r nn) i))
      = affine (fun i f => x1 (ix2 f i)) (fun i => x2 (ix2 0 i)) (fun f => x0 (ix3 r nn f)) :=
    funext fun i => embed_apply x0 x1 x2 r nn i
  have h1 : (fun i => k0_pay8 (k0_pay4 x0 x1 x2) (k0_pay5 x0 x1 x2 wi0 bi0) (k0_pay6 x0 x1 x2 wo0 bo0) (k0_pay7 wc0) bc0
        (ix2 (rowIx r nn) i))
      = cell (Wof wi0) (Wof wo0) (Wof wc0) (bof bi0) (bof bo0) (bof bc0)
          (affine (fun i f => x1 (ix2 f i)) (fun i => x2 (ix2 0 i)) (fun f => x0 (ix3 r nn f))) :=
    funext fun i => by
      rw [hidden1_apply, gateO0_apply, gateI0_apply, h0]
      rfl
  rw [gateO1_apply, gateI1_apply, gateC1_apply, h1]
  rfl

/-- THE STEP IN THE SPECIFICATION'S TERMS. If nine blocks read as windows onto the six arguments do — the feature
    block a box of trees `T r` and nodes `Nn nn`, the embedding weight transposed, the embedding bias as one row, gate
    `g`'s weight stack transposed layer by layer, gate `g`'s bias stack the two bias arrays' sum — the step adds, at tree
    `r` and unit `o`, the sum over the box's nodes of the specification's node output. -/
theorem stepOf_of_blocks (x0 : Vec Ideal S8x1024x64 .f32) (x1 : Vec Ideal S64x64 .bf16) (x2 : Vec Ideal S1x64 .f32)
    (x3 x4 x5 : Vec Ideal S2x64x64 .bf16) (x6 x7 x8 : Vec Ideal S2x64 .f32) (acc : Vec Ideal S8x64 .f32)
    (X : Cert.TreeNet.Feat.Idx → EReal) (We : Cert.TreeNet.Sq.Idx → EReal) (Be : Cert.TreeNet.Row.Idx → EReal)
    (Wx : Cert.TreeNet.Gates.Idx → EReal) (BW BU : Cert.TreeNet.Biases.Idx → EReal)
    (T : Fin 8 → Fin 64) (Nn : Fin 1024 → Fin 8192)
    (h0 : ∀ r nn f, x0 (ix3 r nn f) = X (ix3 (T r) (Nn nn) f))
    (h1 : ∀ f i, x1 (ix2 f i) = We (ix2 i f))
    (h2 : ∀ i, x2 (ix2 0 i) = Be (ix1 i))
    (h3 : ∀ l i o, x3 (ix3 l i o) = Wx (ix4 l 0 o i))
    (h4 : ∀ l i o, x4 (ix3 l i o) = Wx (ix4 l 1 o i))
    (h5 : ∀ l i o, x5 (ix3 l i o) = Wx (ix4 l 2 o i))
    (h6 : ∀ l o, x6 (ix2 l o) = BW (ix3 l 0 o) + BU (ix3 l 0 o))
    (h7 : ∀ l o, x7 (ix2 l o) = BW (ix3 l 1 o) + BU (ix3 l 1 o))
    (h8 : ∀ l o, x8 (ix2 l o) = BW (ix3 l 2 o) + BU (ix3 l 2 o))
    (r : Fin 8) (o : Fin 64) :
    stepOf (F := Ideal) x0 x1 x2 x3 x4 x5 x6 x7 x8 acc (ix2 r o)
      = acc (ix2 r o) + ∑ nn : Fin 1024, Cert.TreeNet.nodeOut X We Be Wx BW BU (T r) (Nn nn) o := by
  unfold stepOf
  refine (step_apply x0 x1 x2 _ _ _ _ _ _ _ _ _ _ _ _ acc r o).trans ?_
  refine congrArg (acc (ix2 r o) + ·) (Finset.sum_congr rfl fun nn _ => ?_)
  unfold Cert.TreeNet.nodeOut Cert.TreeNet.layer Cert.TreeNet.embedded
  have w00 : Wof (weight0 x3) = fun o i => Wx (ix4 0 0 o i) :=
    funext fun o => funext fun i => (weight0_apply x3 i o).trans (h3 0 i o)
  have b00 : bof (bias0 x6) = fun o => BW (ix3 0 0 o) + BU (ix3 0 0 o) :=
    funext fun o => (bias0_apply x6 o).trans (h6 0 o)
  have w01 : Wof (weight0 x4) = fun o i => Wx (ix4 0 1 o i) :=
    funext fun o => funext fun i => (weight0_apply x4 i o).trans (h4 0 i o)
  have b01 : bof (bias0 x7) = fun o => BW (ix3 0 1 o) + BU (ix3 0 1 o) :=
    funext fun o => (bias0_apply x7 o).trans (h7 0 o)
  have w02 : Wof (weight0 x5) = fun o i => Wx (ix4 0 2 o i) :=
    funext fun o => funext fun i => (weight0_apply x5 i o).trans (h5 0 i o)
  have b02 : bof (bias0 x8) = fun o => BW (ix3 0 2 o) + BU (ix3 0 2 o) :=
    funext fun o => (bias0_apply x8 o).trans (h8 0 o)
  have w10 : Wof (weight1 x3) = fun o i => Wx (ix4 1 0 o i) :=
    funext fun o => funext fun i => (weight1_apply x3 i o).trans (h3 1 i o)
  have b10 : bof (bias1 x6) = fun o => BW (ix3 1 0 o) + BU (ix3 1 0 o) :=
    funext fun o => (bias1_apply x6 o).trans (h6 1 o)
  have w11 : Wof (weight1 x4) = fun o i => Wx (ix4 1 1 o i) :=
    funext fun o => funext fun i => (weight1_apply x4 i o).trans (h4 1 i o)
  have b11 : bof (bias1 x7) = fun o => BW (ix3 1 1 o) + BU (ix3 1 1 o) :=
    funext fun o => (bias1_apply x7 o).trans (h7 1 o)
  have w12 : Wof (weight1 x5) = fun o i => Wx (ix4 1 2 o i) :=
    funext fun o => funext fun i => (weight1_apply x5 i o).trans (h5 1 i o)
  have b12 : bof (bias1 x8) = fun o => BW (ix3 1 2 o) + BU (ix3 1 2 o) :=
    funext fun o => (bias1_apply x8 o).trans (h8 1 o)
  rw [w00, b00, w01, b01, w02, b02, w10, b10, w11, b11, w12, b12]
  simp only [h0, h1, h2]

end Cert.KernelIdeal.Body

end
-- ==== Proof.LibBlockSum.lean ====
/-
  Regrouping a long sum into consecutive blocks.

  A sum over `N = G · L` consecutive positions is the sum, over the `G` blocks of `L` consecutive positions each, of the
  blocks' own sums: position `kk` of block `kb` is position `L · kb + kk` of the whole range. Only commutativity and
  associativity of `+` are used, so the law holds in every additive commutative monoid — in particular on the extended
  reals, where `+` is commutative and associative although it does not cancel and `·` does not distribute at the
  infinities. It is the law that joins a contraction (a matrix product, a long reduction) accumulated block by block
  with the same contraction taken in one piece.

  `sum_blocks` states it over `Fin (G * L)`; `sum_blocks_of_eq` over `Fin N` for a total `N` given with `N = G * L`
  (for literal sizes the equation is `rfl`), the position written `⟨L * kb + kk, _⟩`.
-/
import Mathlib.Logic.Equiv.Fin.Basic
import Mathlib.Data.Fintype.BigOperators

namespace Cert.Lib.BlockSum

open Finset

/-- Position `kk` of block `kb`, among `G · L` consecutive positions cut into `G` blocks of `L`. -/
def blockPos (G L : ℕ) (kb : Fin G) (kk : Fin L) : Fin (G * L) := finProdFinEquiv (kb, kk)

/-- As a number, position `kk` of block `kb` is `kk + L · kb`. -/
theorem blockPos_val (G L : ℕ) (kb : Fin G) (kk : Fin L) : (blockPos G L kb kk).val = kk.val + L * kb.val := rfl

/-- `L · kb + kk` is one of the `N = G · L` positions. -/
theorem blockPos_lt {G L N : ℕ} (hN : N = G * L) (kb : Fin G) (kk : Fin L) : L * kb.val + kk.val < N :=
  calc L * kb.val + kk.val < L * kb.val + L := Nat.add_lt_add_left kk.isLt _
    _ = L * (kb.val + 1) := (Nat.mul_succ L kb.val).symm
    _ ≤ L * G := Nat.mul_le_mul_left L kb.isLt
    _ = N := by rw [hN, Nat.mul_comm]

/-- A sum over `G · L` positions is the sum over the blocks of each block's sum. -/
theorem sum_blocks {M : Type*} [AddCommMonoid M] (G L : ℕ) (f : Fin (G * L) → M) :
    ∑ k, f k = ∑ kb : Fin G, ∑ kk : Fin L, f (blockPos G L kb kk) :=
  (Fintype.sum_equiv finProdFinEquiv (fun p => f (finProdFinEquiv p)) f (fun _ => rfl)).symm.trans
    (Fintype.sum_prod_type _)

/-- The same over `Fin N` with `N = G · L`, the position written `L · kb + kk`. -/
theorem sum_blocks_of_eq {M : Type*} [AddCommMonoid M] {G L N : ℕ} (hN : N = G * L) (f : Fin N → M) :
    ∑ k, f k = ∑ kb : Fin G, ∑ kk : Fin L, f ⟨L * kb.val + kk.val, blockPos_lt hN kb kk⟩ := by
  subst hN
  refine (sum_blocks G L f).trans ?_
  refine Finset.sum_congr rfl fun kb _ => Finset.sum_congr rfl fun kk _ => congrArg f (Fin.ext ?_)
  show kk.val + L * kb.val = L * kb.val + kk.val
  exact Nat.add_comm _ _

end Cert.Lib.BlockSum
-- ==== Proof.Fold.lean ====
/-
  From grid points to the result array.

  A sweep is eight consecutive points `8q, …, 8q + 7`: the same eight trees, tile after tile of 1024 nodes. Each point
  adds to the scratch, at tree `r` and unit `o`, the sum over its tile's nodes of the node output; the first point of
  the sweep starts from zeros. So after the sweep's last point the scratch holds, at `(r, o)`, zero plus the eight
  tiles' sums — and a sum over eight consecutive tiles of 1024 nodes is the sum over all 8192 nodes of the tree. That
  last point writes the scratch times `2⁻¹³` into the output block of the sweep's eight trees: the specification's mean.
  The eight sweeps' blocks cover the result array.
-/
import proofs.«160879_j67611375173685_2_alg».proof.Proof.Blocks
import proofs.«160879_j67611375173685_2_alg».proof.Proof.StepValue
import proofs.«160879_j67611375173685_2_alg».proof.Proof.LibBlockSum
import proofs.«160879_j67611375173685_2_alg».proof.Proof.Gen.KernelIdeal.Value

noncomputable section

open scoped BigOperators

namespace Cert.KernelIdeal.Body

open Cert.KernelIdeal Cert.KernelIdeal.Gen Idealize.ShloMosaic Idealize.ShloMosaic.TcCoe Idealize.SL.Sem
open Idealize.ShloMosaic.ValueIdx
open Idealize.ShloMosaic.Pipeline (Dat)
open Cert.TreeNet (nodeOut treeMean)

variable (m : (ℓ : Loc nD τ sig) → Buf (Elt Ideal) ℓ)

/-- What point `n` adds to the scratch at tree `r` of its block and unit `o`: its tile's sum of node outputs (zero past
    the grid, where it is never read). -/
def tileSum (c : Dev nD) (n : ℕ) (r : Fin 8) (o : Fin 64) : EReal :=
  if h : n < cfg0.N then
    ∑ nn : Fin 1024, nodeOut (argX m c) (argWe m c) (argBe m c) (argWx m c) (argBW m c) (argBU m c) (treeAt ⟨n, h⟩ r) (nodeAt ⟨n, h⟩ nn) o
  else 0

/-- The step at point `t`, on that point's blocks: the scratch plus the point's tile sum. -/
theorem stepOf_point (c : Dev nD) (t : Fin cfg0.N) (acc : Vec Ideal S8x64 .f32) (i : S8x64.Idx) :
    stepOf (F := Ideal) (iblk m c 0 t) (iblk m c 1 t) (iblk m c 2 t) (iblk m c 3 t) (iblk m c 4 t) (iblk m c 5 t) (iblk m c 6 t) (iblk m c 7 t) (iblk m c 8 t) acc i = acc i + tileSum m c t.val (i 0) (i 1) := by
  obtain ⟨r, o, rfl⟩ : ∃ (r : Fin 8) (o : Fin 64), i = ix2 r o := ⟨i 0, i 1, eq_ix2 i⟩
  refine (stepOf_of_blocks (iblk m c 0 t) (iblk m c 1 t) (iblk m c 2 t) (iblk m c 3 t) (iblk m c 4 t) (iblk m c 5 t) (iblk m c 6 t) (iblk m c 7 t) (iblk m c 8 t) acc (argX m c) (argWe m c) (argBe m c) (argWx m c) (argBW m c) (argBU m c) (treeAt t) (nodeAt t)
    (featBlock_apply m c t)
    (fun f i => (resident1_apply m c t f i).trans (embWeight_apply m c f i))
    (fun i => (resident2_apply m c t 0 i).trans (embBias_apply m c i))
    (fun l i o => (resident3_apply m c t l i o).trans (gateWeight0_apply m c l i o))
    (fun l i o => (resident4_apply m c t l i o).trans (gateWeight1_apply m c l i o))
    (fun l i o => (resident5_apply m c t l i o).trans (gateWeight2_apply m c l i o))
    (fun l o => (resident6_apply m c t l o).trans (gateBias0_apply m c l o))
    (fun l o => (resident7_apply m c t l o).trans (gateBias1_apply m c l o))
    (fun l o => (resident8_apply m c t l o).trans (gateBias2_apply m c l o)) r o).trans ?_
  show _ + _ = _ + tileSum m c t.val r o
  unfold tileSum
  rw [dif_pos t.isLt]

/-- The zeros a sweep's first point stores are zero. -/
theorem reset_apply (i : S8x64.Idx) : k0_pay3 (F := Ideal) i = 0 := by
  unfold k0_pay3
  rw [shapeCast_self]
  exact Ideal.ofBits_zero_f32

/-- THE SCRATCH after point `t`, at `i`: zero plus the tile sums of the sweep's points up to `t`. -/
theorem scratch_eq (c : Dev nD) (t : Fin cfg0.N) (i : S8x64.Idx) :
    (outsAt0 m c t.val t.isLt).2 i
      = 0 + ∑ s ∈ Finset.range (t.val % 8 + 1), tileSum m c (8 * (t.val / 8) + s) (i 0) (i 1) := by
  have hN : cfg0.N = 64 := N_0
  rw [Cert.KernelIdeal.Value.soutsAt0_0_eq m c t]
  refine Pipeline.accAt_add_apply _ _ (fun _ => (0 : EReal)) (fun n (i : S8x64.Idx) => tileSum m c n (i 0) (i 1))
    (8 * (t.val / 8)) 7 ?ha ?hg (t.val % 8) (by omega) _ i
  case ha =>
    intro h i
    have h0 : (8 * (t.val / 8)) % 8 = 0 := Nat.mul_mod_right _ _
    have h1 : ¬(8 * (t.val / 8)) % 8 = 7 := by omega
    show Cert.KernelIdeal.Value.scAt0_0 m c _ h _ i = _
    unfold Cert.KernelIdeal.Value.scAt0_0
    rw [dif_pos h0, dif_neg h1, scratch_A]
    rw [stepOf_point m c ⟨_, h⟩ _ i, reset_apply]
  case hg =>
    intro n h acc i hb he
    have h0 : ¬n % 8 = 0 := by omega
    show Cert.KernelIdeal.Value.scAt0_0 m c n h acc i = _
    unfold Cert.KernelIdeal.Value.scAt0_0
    rw [dif_neg h0]
    by_cases h1 : n % 8 = 7
    · rw [dif_pos h1, scratch_C]; exact stepOf_point m c ⟨n, h⟩ acc i
    · rw [dif_neg h1, scratch_B]; exact stepOf_point m c ⟨n, h⟩ acc i

/-- A WHOLE SWEEP'S TILE SUMS are the sum over all of a tree's nodes: eight consecutive tiles of 1024 nodes are the
    8192 nodes. -/
theorem sweep_sum (c : Dev nD) (q : ℕ) (hq : q < 8) (r : Fin 8) (o : Fin 64) :
    ∑ s ∈ Finset.range 8, tileSum m c (8 * q + s) r o
      = ∑ n : Fin 8192, nodeOut (argX m c) (argWe m c) (argBe m c) (argWx m c) (argBW m c) (argBU m c) ⟨8 * q + r.val, by have := r.isLt; omega⟩ n o := by
  have hN : cfg0.N = 64 := N_0
  rw [Finset.sum_range, Cert.Lib.BlockSum.sum_blocks_of_eq (show 8192 = 8 * 1024 from rfl)]
  refine Finset.sum_congr rfl fun s _ => ?_
  have hs : 8 * q + s.val < cfg0.N := by have := s.isLt; omega
  unfold tileSum
  rw [dif_pos hs]
  refine Finset.sum_congr rfl fun nn _ => ?_
  have hT : treeAt ⟨8 * q + s.val, hs⟩ r = ⟨8 * q + r.val, by have := r.isLt; omega⟩ := Fin.ext (by
    show 8 * ((8 * q + s.val) / 8) + r.val = 8 * q + r.val
    have := s.isLt; omega)
  have hNn : nodeAt ⟨8 * q + s.val, hs⟩ nn = ⟨1024 * s.val + nn.val, Cert.Lib.BlockSum.blockPos_lt (show 8192 = 8 * 1024 from rfl) s nn⟩ := Fin.ext (by
    show 1024 * ((8 * q + s.val) % 8) + nn.val = 1024 * s.val + nn.val
    have := s.isLt; omega)
  rw [hT, hNn]

/-- The specification's result on core `c`, of the arguments as launched. -/
abbrev result (c : Dev nD) : S64x64.Idx → EReal := treeMean (argX m c) (argWe m c) (argBe m c) (argWx m c) (argBW m c) (argBU m c)

/-- At a sweep's last point the output block holds the scratch just written, scaled. -/
theorem output_eq (c : Dev nD) (t : Fin cfg0.N) (h1 : t.val % 8 = 7) :
    (outsAt0 m c t.val t.isLt).1 = k0_pay2 ((outsAt0 m c t.val t.isLt).2) := by
  have h0 : ¬t.val % 8 = 0 := by omega
  rw [outsAt0_C m c t h0 h1]
  dsimp only
  rw [output_C, scratch_C]

/-- WHAT A SWEEP'S LAST POINT WRITES BACK is its block — the sweep's eight trees — of the specification's result. -/
theorem flushed_eq (c : Dev nD) (t : Fin cfg0.N) (hf : (cfg0.win 9).flush t = true) :
    (dats m 0 c).flushed 9 t = ((cfg0.win 9).blk t).view.read (Elt Ideal) (result m c) := by
  have hN : cfg0.N = 64 := N_0
  have ht := t.isLt
  have h7 : t.val % 8 = 7 := (flush0_9 t).mp hf
  obtain ⟨-, -, -, e0, e1⟩ := idx_moving t
  rw [Cert.KernelIdeal.Value.flushed9, output_eq m c t h7]
  funext j
  have hj0 : (j 0).val < 8 := (j 0).isLt
  have hemb : ((cfg0.win 9).blk t).view.emb j = ix2 (⟨8 * (t.val / 8) + (j 0).val, by omega⟩ : Fin 64) (j 1) :=
    funext fun a => Fin.ext (by
      match a with
      | ⟨0, _⟩ => show win0_9.index t (0 : Fin 2) * 8 + 1 * (j 0).val = 8 * (t.val / 8) + (j 0).val; rw [e0]; omega
      | ⟨1, _⟩ => show win0_9.index t (1 : Fin 2) * 64 + 1 * (j 1).val = (j 1).val; rw [e1]; omega)
  show (outsAt0 m c t.val t.isLt).2 j * Ideal.ofBits .f32 0x39000000#32 = result m c (((cfg0.win 9).blk t).view.emb j)
  rw [hemb, scratch_eq m c t j, h7, zero_add]
  exact congrArg (· * Ideal.ofBits .f32 0x39000000#32) (sweep_sum m c (t.val / 8) (by omega) (j 0) (j 1))

/-- An index of the result array is in point `t`'s output block iff its row is among the sweep's eight. -/
theorem mem_block (t : Fin cfg0.N) (i : S64x64.Idx) :
    i ∈ ((cfg0.win 9).blk t).view.set
      ↔ ∀ a : Fin 2, win0_9.index t a * S8x64.size a ≤ (i a).val ∧ (i a).val < win0_9.index t a * S8x64.size a + S8x64.size a := by
  show i ∈ ((View.whole main_v20).slice (win0_9.rect t)).set ↔ _
  rw [View.set_slice_whole, Rect.mem_set_unit]
  exact Iff.rfl

/-- THE RESULT ARRAY after the run is the specification's result: the last point of sweep `row / 8` covers a row. -/
theorem final (c : Dev nD) : (dats m 0 c).arrAt 9 cfg0.N = result m c :=
  (dats m 0 c).arrAt_eq_of_cover 9 (result m c) (flushed_eq m c) fun i => by
    have hN : cfg0.N = 64 := N_0
    have hi0 : (i 0).val < 64 := (i 0).isLt
    have hi1 : (i 1).val < 64 := (i 1).isLt
    let t : Fin cfg0.N := ⟨8 * ((i 0).val / 8) + 7, by omega⟩
    obtain ⟨-, -, -, e0, e1⟩ := idx_moving t
    have hq : t.val / 8 = (i 0).val / 8 := by show (8 * ((i 0).val / 8) + 7) / 8 = _; omega
    refine ⟨t, (flush0_9 t).mpr (by show (8 * ((i 0).val / 8) + 7) % 8 = 7; omega), ?_⟩
    rw [mem_block]
    intro a
    match a with
    | ⟨0, _⟩ => show win0_9.index t (0 : Fin 2) * 8 ≤ (i 0).val ∧ (i 0).val < win0_9.index t (0 : Fin 2) * 8 + 8; rw [e0, hq]; omega
    | ⟨1, _⟩ => show win0_9.index t (1 : Fin 2) * 64 ≤ (i 1).val ∧ (i 1).val < win0_9.index t (1 : Fin 2) * 64 + 64; rw [e1]; omega

/-- THE KERNEL'S RUN, read: every weakly fair execution ends with the result array at the specification's result and
    the six arguments as launched. -/
theorem run (ρ : Dev nD → PrngReg) : θ_run defs (onTc (τ := τ) (main (F := Ideal))) ⟨m, fun _ => 0, ρ⟩ fun r => ∀ c : Dev nD,
      r.2.mem ((c : Thread nD τ).loc main_v20) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelIdeal.Body

end
-- ==== Proof.RefValue.lean ====
/-
  The reference program, stage by stage, is the specification.

  The reference embeds every node of every tree at once, and for each layer takes all three gates' pre-activations in
  one contraction of the hidden rows with the layer's `[3, 64, 64]` weight, adds the two bias arrays one after the
  other, cuts the gates apart, spells the sigmoid out as `1 / (1 + e⁻ᶻ)`, and at the end divides the sum over a tree's
  8192 nodes by 8192. Read at coordinates, each stage is the specification's: the contraction is the affine map's sum;
  adding `bW` and then `bU` is adding their sum, since addition of extended reals is associative; the spelled-out
  sigmoid is the sigmoid by definition, the literal `1.0` being `1`; and dividing by 8192 is multiplying by `2⁻¹³`.
-/
import proofs.«160879_j67611375173685_2_alg».proof.Proof.Gen.ReferenceIdeal.Read
import proofs.«160879_j67611375173685_2_alg».proof.Proof.Spec
import proofs.«160879_j67611375173685_2_alg».proof.Proof.Literals

noncomputable section

open scoped BigOperators

namespace Cert.ReferenceIdeal.RefValue

open Cert.ReferenceIdeal Cert.ReferenceIdeal.Read Idealize.ShloMosaic Idealize.ShloMosaic.ValueIdx
open Cert.TreeNet

variable (x0 : (⟨S64x8192x64, .f32⟩ : BufTy).Contents (Elt Ideal)) (x1 : (⟨S64x64, .f32⟩ : BufTy).Contents (Elt Ideal))
  (x2 : (⟨S64, .f32⟩ : BufTy).Contents (Elt Ideal)) (x3 : (⟨S2x3x64x64, .f32⟩ : BufTy).Contents (Elt Ideal))
  (x4 x5 : (⟨S2x3x64, .f32⟩ : BufTy).Contents (Elt Ideal))

/-! ## The embedding -/

theorem ix_lhs0 (B : Fin 64) (n : Fin 8192) (i k : Fin 64) : lidx_main_v0 (ix3 B n i) k = ix3 B n k :=
  funext fun a => Fin.ext (by
    match a with
    | ⟨0, _⟩ => rfl
    | ⟨1, _⟩ => rfl
    | ⟨2, _⟩ => rfl)
theorem ix_rhs0 (B : Fin 64) (n : Fin 8192) (i k : Fin 64) : ridx_main_v0 (ix3 B n i) k = ix2 i k :=
  funext fun a => Fin.ext (by
    match a with
    | ⟨0, _⟩ => rfl
    | ⟨1, _⟩ => rfl)
theorem ix_bias0 (B : Fin 64) (n : Fin 8192) (i : Fin 64) : idx_main_v1 (idx_main_v2 (ix3 B n i)) = ix1 i :=
  funext fun a => Fin.ext (by
    match a with
    | ⟨0, _⟩ => rfl)

/-- Stage `%3`: node `n` of tree `B`, embedded. -/
theorem embedded_eq (B : Fin 64) (n : Fin 8192) (i : Fin 64) :
    val_main_v3 (F := Ideal) x0 x1 x2 (ix3 B n i) = embedded x0 x1 x2 B n i := by
  rw [val_main_v3_apply, val_main_v0_apply, val_main_v2_apply, val_main_v1_apply]
  simp only [ix_lhs0, ix_rhs0, ix_bias0]
  rfl

/-! ## Layer 0 -/

theorem ix_lhs1 (B : Fin 64) (n : Fin 8192) (g : Fin 3) (o k : Fin 64) : lidx_main_v6 (ix4 B n g o) k = ix3 B n k :=
  funext fun a => Fin.ext (by
    match a with
    | ⟨0, _⟩ => rfl
    | ⟨1, _⟩ => rfl
    | ⟨2, _⟩ => rfl)
theorem ix_weight0 (B : Fin 64) (n : Fin 8192) (g : Fin 3) (o k : Fin 64) :
    idx_main_v4 (idx_main_v5 (ridx_main_v6 (ix4 B n g o) k)) = ix4 0 g o k := by
  have := g.isLt; have := o.isLt; have := k.isLt
  exact funext fun a => Fin.ext (by
    match a with
    | ⟨0, _⟩ => rfl
    | ⟨1, _⟩ => show ((g.val * 64 + o.val) * 64 + k.val) / 4096 % 3 = g.val; omega
    | ⟨2, _⟩ => show ((g.val * 64 + o.val) * 64 + k.val) / 64 % 64 = o.val; omega
    | ⟨3, _⟩ => show ((g.val * 64 + o.val) * 64 + k.val) % 64 = k.val; omega)
theorem ix_biasW0 (B : Fin 64) (n : Fin 8192) (g : Fin 3) (o : Fin 64) :
    idx_main_v7 (idx_main_v8 (idx_main_v9 (idx_main_v10 (ix4 B n g o)))) = ix3 0 g o := by
  have := g.isLt; have := o.isLt
  exact funext fun a => Fin.ext (by
    match a with
    | ⟨0, _⟩ => rfl
    | ⟨1, _⟩ => show (g.val * 64 + o.val) / 64 % 3 = g.val; omega
    | ⟨2, _⟩ => show (g.val * 64 + o.val) % 64 = o.val; omega)
theorem ix_biasU0 (B : Fin 64) (n : Fin 8192) (g : Fin 3) (o : Fin 64) :
    idx_main_v12 (idx_main_v13 (idx_main_v14 (idx_main_v15 (ix4 B n g o)))) = ix3 0 g o := by
  have := g.isLt; have := o.isLt
  exact funext fun a => Fin.ext (by
    match a with
    | ⟨0, _⟩ => rfl
    | ⟨1, _⟩ => show (g.val * 64 + o.val) / 64 % 3 = g.val; omega
    | ⟨2, _⟩ => show (g.val * 64 + o.val) % 64 = o.val; omega)
theorem ix_gate00 (B : Fin 64) (n : Fin 8192) (o : Fin 64) : idx_main_v17 (idx_main_v18 (ix3 B n o)) = ix4 B n 0 o := by
  have := B.isLt; have := n.isLt; have := o.isLt
  exact funext fun a => Fin.ext (by
    match a with
    | ⟨0, _⟩ => show ((B.val * 8192 + n.val) * 64 + o.val) / 524288 = B.val; omega
    | ⟨1, _⟩ => show ((B.val * 8192 + n.val) * 64 + o.val) / 64 % 8192 = n.val; omega
    | ⟨2, _⟩ => rfl
    | ⟨3, _⟩ => show ((B.val * 8192 + n.val) * 64 + o.val) % 64 = o.val; omega)
theorem ix_gate01 (B : Fin 64) (n : Fin 8192) (o : Fin 64) : idx_main_v25 (idx_main_v26 (ix3 B n o)) = ix4 B n 1 o := by
  have := B.isLt; have := n.isLt; have := o.isLt
  exact funext fun a => Fin.ext (by
    match a with
    | ⟨0, _⟩ => show ((B.val * 8192 + n.val) * 64 + o.val) / 524288 = B.val; omega
    | ⟨1, _⟩ => show ((B.val * 8192 + n.val) * 64 + o.val) / 64 % 8192 = n.val; omega
    | ⟨2, _⟩ => rfl
    | ⟨3, _⟩ => show ((B.val * 8192 + n.val) * 64 + o.val) % 64 = o.val; omega)
theorem ix_gate02 (B : Fin 64) (n : Fin 8192) (o : Fin 64) : idx_main_v33 (idx_main_v34 (ix3 B n o)) = ix4 B n 2 o := by
  have := B.isLt; have := n.isLt; have := o.isLt
  exact funext fun a => Fin.ext (by
    match a with
    | ⟨0, _⟩ => show ((B.val * 8192 + n.val) * 64 + o.val) / 524288 = B.val; omega
    | ⟨1, _⟩ => show ((B.val * 8192 + n.val) * 64 + o.val) / 64 % 8192 = n.val; omega
    | ⟨2, _⟩ => rfl
    | ⟨3, _⟩ => show ((B.val * 8192 + n.val) * 64 + o.val) % 64 = o.val; omega)

/-- Stage `%16`: gate `g`'s pre-activation of node `(B, n)`, the affine map of the hidden row before it with the
    two bias rows' sum (the reference adds them one after the other). -/
theorem preact0_eq (B : Fin 64) (n : Fin 8192) (g : Fin 3) (o : Fin 64) :
    val_main_v16 (F := Ideal) x0 x1 x2 x3 x4 x5 (ix4 B n g o)
      = affine (fun o i => x3 (ix4 0 g o i)) (fun o => x4 (ix3 0 g o) + x5 (ix3 0 g o))
          (fun i => val_main_v3 (F := Ideal) x0 x1 x2 (ix3 B n i)) o := by
  rw [val_main_v16_apply, val_main_v11_apply, val_main_v6_apply, val_main_v10_apply, val_main_v9_apply, val_main_v8_apply, val_main_v7_apply, val_main_v15_apply, val_main_v14_apply, val_main_v13_apply, val_main_v12_apply]
  simp only [val_main_v5_apply, val_main_v4_apply, ix_lhs1, ix_weight0, ix_biasW0, ix_biasU0]
  exact add_assoc _ _ _

/-- Stage `%38`: layer 0's cell of node `(B, n)`. -/
theorem hidden1_eq (B : Fin 64) (n : Fin 8192) (o : Fin 64) :
    val_main_v38 (F := Ideal) x0 x1 x2 x3 x4 x5 (ix3 B n o) = layer x3 x4 x5 0 (fun i => val_main_v3 (F := Ideal) x0 x1 x2 (ix3 B n i)) o := by
  rw [val_main_v38_apply, val_main_v32_apply, val_main_v31_apply, val_main_cst_2_apply, val_main_v30_apply, val_main_v29_apply, val_main_cst_1_apply, val_main_v28_apply, val_main_v27_apply, val_main_v26_apply, val_main_v25_apply, val_main_v37_apply, val_main_v36_apply, val_main_v24_apply, val_main_v23_apply, val_main_cst_0_apply, val_main_v22_apply, val_main_v21_apply, val_main_cst_apply, val_main_v20_apply, val_main_v19_apply, val_main_v18_apply, val_main_v17_apply, val_main_v35_apply, val_main_v34_apply, val_main_v33_apply]
  simp only [ix_gate00, ix_gate01, ix_gate02, preact0_eq]
  simp only [Ideal.ofBits_def, Cert.Literals.one_word]
  rfl

/-! ## Layer 1 -/

theorem ix_lhs2 (B : Fin 64) (n : Fin 8192) (g : Fin 3) (o k : Fin 64) : lidx_main_v41 (ix4 B n g o) k = ix3 B n k :=
  funext fun a => Fin.ext (by
    match a with
    | ⟨0, _⟩ => rfl
    | ⟨1, _⟩ => rfl
    | ⟨2, _⟩ => rfl)
theorem ix_weight1 (B : Fin 64) (n : Fin 8192) (g : Fin 3) (o k : Fin 64) :
    idx_main_v39 (idx_main_v40 (ridx_main_v41 (ix4 B n g o) k)) = ix4 1 g o k := by
  have := g.isLt; have := o.isLt; have := k.isLt
  exact funext fun a => Fin.ext (by
    match a with
    | ⟨0, _⟩ => rfl
    | ⟨1, _⟩ => show ((g.val * 64 + o.val) * 64 + k.val) / 4096 % 3 = g.val; omega
    | ⟨2, _⟩ => show ((g.val * 64 + o.val) * 64 + k.val) / 64 % 64 = o.val; omega
    | ⟨3, _⟩ => show ((g.val * 64 + o.val) * 64 + k.val) % 64 = k.val; omega)
theorem ix_biasW1 (B : Fin 64) (n : Fin 8192) (g : Fin 3) (o : Fin 64) :
    idx_main_v42 (idx_main_v43 (idx_main_v44 (idx_main_v45 (ix4 B n g o)))) = ix3 1 g o := by
  have := g.isLt; have := o.isLt
  exact funext fun a => Fin.ext (by
    match a with
    | ⟨0, _⟩ => rfl
    | ⟨1, _⟩ => show (g.val * 64 + o.val) / 64 % 3 = g.val; omega
    | ⟨2, _⟩ => show (g.val * 64 + o.val) % 64 = o.val; omega)
theorem ix_biasU1 (B : Fin 64) (n : Fin 8192) (g : Fin 3) (o : Fin 64) :
    idx_main_v47 (idx_main_v48 (idx_main_v49 (idx_main_v50 (ix4 B n g o)))) = ix3 1 g o := by
  have := g.isLt; have := o.isLt
  exact funext fun a => Fin.ext (by
    match a with
    | ⟨0, _⟩ => rfl
    | ⟨1, _⟩ => show (g.val * 64 + o.val) / 64 % 3 = g.val; omega
    | ⟨2, _⟩ => show (g.val * 64 + o.val) % 64 = o.val; omega)
theorem ix_gate10 (B : Fin 64) (n : Fin 8192) (o : Fin 64) : idx_main_v52 (idx_main_v53 (ix3 B n o)) = ix4 B n 0 o := by
  have := B.isLt; have := n.isLt; have := o.isLt
  exact funext fun a => Fin.ext (by
    match a with
    | ⟨0, _⟩ => show ((B.val * 8192 + n.val) * 64 + o.val) / 524288 = B.val; omega
    | ⟨1, _⟩ => show ((B.val * 8192 + n.val) * 64 + o.val) / 64 % 8192 = n.val; omega
    | ⟨2, _⟩ => rfl
    | ⟨3, _⟩ => show ((B.val * 8192 + n.val) * 64 + o.val) % 64 = o.val; omega)
theorem ix_gate11 (B : Fin 64) (n : Fin 8192) (o : Fin 64) : idx_main_v60 (idx_main_v61 (ix3 B n o)) = ix4 B n 1 o := by
  have := B.isLt; have := n.isLt; have := o.isLt
  exact funext fun a => Fin.ext (by
    match a with
    | ⟨0, _⟩ => show ((B.val * 8192 + n.val) * 64 + o.val) / 524288 = B.val; omega
    | ⟨1, _⟩ => show ((B.val * 8192 + n.val) * 64 + o.val) / 64 % 8192 = n.val; omega
    | ⟨2, _⟩ => rfl
    | ⟨3, _⟩ => show ((B.val * 8192 + n.val) * 64 + o.val) % 64 = o.val; omega)
theorem ix_gate12 (B : Fin 64) (n : Fin 8192) (o : Fin 64) : idx_main_v68 (idx_main_v69 (ix3 B n o)) = ix4 B n 2 o := by
  have := B.isLt; have := n.isLt; have := o.isLt
  exact funext fun a => Fin.ext (by
    match a with
    | ⟨0, _⟩ => show ((B.val * 8192 + n.val) * 64 + o.val) / 524288 = B.val; omega
    | ⟨1, _⟩ => show ((B.val * 8192 + n.val) * 64 + o.val) / 64 % 8192 = n.val; omega
    | ⟨2, _⟩ => rfl
    | ⟨3, _⟩ => show ((B.val * 8192 + n.val) * 64 + o.val) % 64 = o.val; omega)

/-- Stage `%51`: gate `g`'s pre-activation of node `(B, n)`, the affine map of the hidden row before it with the
    two bias rows' sum (the reference adds them one after the other). -/
theorem preact1_eq (B : Fin 64) (n : Fin 8192) (g : Fin 3) (o : Fin 64) :
    val_main_v51 (F := Ideal) x0 x1 x2 x3 x4 x5 (ix4 B n g o)
      = affine (fun o i => x3 (ix4 1 g o i)) (fun o => x4 (ix3 1 g o) + x5 (ix3 1 g o))
          (fun i => val_main_v38 (F := Ideal) x0 x1 x2 x3 x4 x5 (ix3 B n i)) o := by
  rw [val_main_v51_apply, val_main_v46_apply, val_main_v41_apply, val_main_v45_apply, val_main_v44_apply, val_main_v43_apply, val_main_v42_apply, val_main_v50_apply, val_main_v49_apply, val_main_v48_apply, val_main_v47_apply]
  simp only [val_main_v40_apply, val_main_v39_apply, ix_lhs2, ix_weight1, ix_biasW1, ix_biasU1]
  exact add_assoc _ _ _

/-- Stage `%73`: layer 1's cell of node `(B, n)`. -/
theorem hidden2_eq (B : Fin 64) (n : Fin 8192) (o : Fin 64) :
    val_main_v73 (F := Ideal) x0 x1 x2 x3 x4 x5 (ix3 B n o) = layer x3 x4 x5 1 (fun i => val_main_v38 (F := Ideal) x0 x1 x2 x3 x4 x5 (ix3 B n i)) o := by
  rw [val_main_v73_apply, val_main_v67_apply, val_main_v66_apply, val_main_cst_6_apply, val_main_v65_apply, val_main_v64_apply, val_main_cst_5_apply, val_main_v63_apply, val_main_v62_apply, val_main_v61_apply, val_main_v60_apply, val_main_v72_apply, val_main_v71_apply, val_main_v59_apply, val_main_v58_apply, val_main_cst_4_apply, val_main_v57_apply, val_main_v56_apply, val_main_cst_3_apply, val_main_v55_apply, val_main_v54_apply, val_main_v53_apply, val_main_v52_apply, val_main_v70_apply, val_main_v69_apply, val_main_v68_apply]
  simp only [ix_gate10, ix_gate11, ix_gate12, preact1_eq]
  simp only [Ideal.ofBits_def, Cert.Literals.one_word]
  rfl

/-! ## The mean -/

theorem ix_nodes (B o : Fin 64) (k : Fin 8192) : idx_main_v74 (ix2 B o) k = ix3 B k o :=
  funext fun a => Fin.ext (by
    match a with
    | ⟨0, _⟩ => rfl
    | ⟨1, _⟩ => rfl
    | ⟨2, _⟩ => rfl)

/-- Node `(B, n)` after both layers is the specification's node output. -/
theorem nodeOut_eq (B : Fin 64) (n : Fin 8192) (o : Fin 64) :
    val_main_v73 (F := Ideal) x0 x1 x2 x3 x4 x5 (ix3 B n o) = nodeOut x0 x1 x2 x3 x4 x5 B n o := by
  rw [hidden2_eq]
  have h1 : (fun i => val_main_v38 (F := Ideal) x0 x1 x2 x3 x4 x5 (ix3 B n i)) = layer x3 x4 x5 0 (embedded x0 x1 x2 B n) := funext fun i => by
    rw [hidden1_eq]
    exact congrArg (fun h => layer x3 x4 x5 0 h i) (funext fun j => embedded_eq x0 x1 x2 B n j)
  rw [h1]
  rfl

/-- THE REFERENCE'S RESULT is the specification's: the mean over a tree's nodes. -/
theorem result_eq : val_main_v76 (F := Ideal) x0 x1 x2 x3 x4 x5 = treeMean x0 x1 x2 x3 x4 x5 := by
  funext j
  obtain ⟨B, o, rfl⟩ : ∃ (B o : Fin 64), j = ix2 B o := ⟨j 0, j 1, eq_ix2 j⟩
  rw [val_main_v76_apply, val_main_v75_apply, val_main_cst_8_apply, val_main_v74_apply, val_main_cst_7_apply]
  simp only [ix_nodes, nodeOut_eq, Ideal.ofBits_def, Ideal.hostDivf_def, Ideal.ofBits_zero_f32, zero_add]
  exact Cert.Literals.div_nodes_eq_mul _

end Cert.ReferenceIdeal.RefValue

end
-- ==== Proof.lean ====
/-
  The kernel and its reference compute one function on the extended reals.

  Both take a batch of 64 trees of 8192 nodes with 64 features each. Every node, by itself, is embedded by an affine
  map and passed through two childless tree cells — `σ(output gate) · tanh (σ(input gate) · tanh (candidate))`, each
  gate an affine map of the hidden row before it — and the result, per tree and hidden unit, is the mean of the last
  hidden row over the tree's nodes (Proof/Spec.lean states this function, `treeMean`).

  The kernel walks a grid of 8 × 8 points: eight sweeps of eight trees, each sweep eight tiles of 1024 nodes. A point
  adds its tile's node sum to a scratch that the sweep's first point starts from zero, and the sweep's last point
  writes the scratch times 2⁻¹³ into the sweep's rows of the result. The reference does everything in one piece and
  divides the node sum by 8192. The two agree because
    * a sum over eight consecutive tiles of 1024 nodes is the sum over the 8192 nodes, addition of extended reals being
      commutative and associative (Proof/LibBlockSum.lean);
    * the kernel adds the two gate bias arrays first and their sum to the product, the reference adds them one after
      the other to the product: associativity again;
    * the reference's spelled-out `1 / (1 + e⁻ᶻ)` is the kernel's sigmoid by definition on the extended reals, and
      every change of float format is the identity there;
    * dividing by 8192 is multiplying by 2⁻¹³ on every extended real (Proof/Literals.lean).
  None of these laws needs an input to be finite, so the precondition is not opened. The three frame claims are the
  generated frames of the two kernel programs and the reference's generated run with its result dropped; the
  idealization rewrote nothing, so there is nothing to preserve.
-/
import proofs.«160879_j67611375173685_2_alg».proof.Defs
import proofs.«160879_j67611375173685_2_alg».proof.Proof.Gen.Kernel
import proofs.«160879_j67611375173685_2_alg».proof.Proof.Gen.Kernel.Skeleton
import proofs.«160879_j67611375173685_2_alg».proof.Proof.Gen.Kernel.Launch
import proofs.«160879_j67611375173685_2_alg».proof.Proof.Gen.Kernel.Points
import proofs.«160879_j67611375173685_2_alg».proof.Proof.Gen.Kernel.Frame
import proofs.«160879_j67611375173685_2_alg».proof.Proof.Gen.KernelIdeal
import proofs.«160879_j67611375173685_2_alg».proof.Proof.Gen.KernelIdeal.Skeleton
import proofs.«160879_j67611375173685_2_alg».proof.Proof.Gen.KernelIdeal.Launch
import proofs.«160879_j67611375173685_2_alg».proof.Proof.Gen.KernelIdeal.Points
import proofs.«160879_j67611375173685_2_alg».proof.Proof.Gen.KernelIdeal.Frame
import proofs.«160879_j67611375173685_2_alg».proof.Proof.Gen.ReferenceIdeal
import proofs.«160879_j67611375173685_2_alg».proof.Proof.Gen.Pre_finite_inputs
import proofs.«160879_j67611375173685_2_alg».proof.Proof.Gen.KernelIdeal.Value
import proofs.«160879_j67611375173685_2_alg».proof.Proof.Gen.ReferenceIdeal.Run
import proofs.«160879_j67611375173685_2_alg».proof.Proof.Gen.ReferenceIdeal.Read
import proofs.«160879_j67611375173685_2_alg».proof.Proof.Fold
import proofs.«160879_j67611375173685_2_alg».proof.Proof.RefValue
import Idealize.ShloMosaic.Adequacy
import Idealize.ShloMosaic.Init

noncomputable section

namespace Cert.Proof

open Idealize.ShloMosaic Idealize.SL.Sem Cert.Kernel

/-- The word-level kernel terminates without a fault and leaves its arguments as launched. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the six arguments, the kernel's result array ends at `treeMean` of its arguments and
    the reference's at `treeMean` of its own: the same array. -/
theorem algebraic : Cert.algebraic_KernelIdeal_ReferenceIdeal := by
  intro m ρ m' ρ' _ hagree
  refine ⟨fun c => Cert.KernelIdeal.Body.result m c, Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v76_eq, Cert.ReferenceIdeal.RefValue.result_eq]
  obtain ⟨h0, h1, h2, h3, h4, h5⟩ := hagree c
  rw [h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
